-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x600000 : Shape := ⟨2, ![2, 600000]⟩
abbrev S2x200000 : Shape := ⟨2, ![2, 200000]⟩
abbrev S100000x128 : Shape := ⟨2, ![100000, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg9 : FVec F S256x1 .f32) (main_arg10 : FVec F S1 .f32) (main_v33 : IVec S_ 1) : IVec S_ 1 :=
  let main_v34 : FVec F S256x1 .f32 := Host.absf main_arg9
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg10
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg6 : FVec F S128x128 .f32) (main_arg7 : FVec F S128 .f32) (main_arg8 : FVec F S128x128 .f32) (main_arg9 : FVec F S256x1 .f32) (main_arg10 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_v33

def fn {F : FTy → Type} [FloatOps F] (main_arg0 : IVec S2x600000 32) (main_arg1 : IVec S2x200000 32) (main_arg2 : FVec F S100000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S256x1 .f32) (main_arg10 : FVec F S1 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S2x600000 : Shape := ⟨2, ![2, 600000]⟩
abbrev S2x200000 : Shape := ⟨2, ![2, 200000]⟩
abbrev S100000x128 : Shape := ⟨2, ![100000, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S5000x128 : Shape := ⟨2, ![5000, 128]⟩
abbrev S5000x1 : Shape := ⟨2, ![5000, 1]⟩
abbrev S128x1 : Shape := ⟨2, ![128, 1]⟩
abbrev S128x2 : Shape := ⟨2, ![128, 2]⟩
abbrev S100000x2 : Shape := ⟨2, ![100000, 2]⟩
abbrev S5000x2 : Shape := ⟨2, ![5000, 2]⟩
abbrev S1x200000 : Shape := ⟨2, ![1, 200000]⟩
abbrev S200000 : Shape := ⟨1, ![200000]⟩
abbrev S200000x1 : Shape := ⟨2, ![200000, 1]⟩

abbrev nBuf : Space → Nat
  | .hbm => 85
  | .vmem => 23
  | .smem => 0
  | _ => 0

abbrev bufTy : (tb : Table) → Fin (tcTables nBuf tb) → BufTy
  | .hbm, ⟨0, _⟩ => ⟨S2x600000, .i32⟩
  | .hbm, ⟨1, _⟩ => ⟨S2x200000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S256x1, .f32⟩
  | .hbm, ⟨10, _⟩ => ⟨S1, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S600000, .f32⟩
  | .hbm, ⟨17, _⟩ => ⟨S_, .f32⟩
  | .hbm, ⟨18, _⟩ => ⟨S100000, .f32⟩
  | .hbm, ⟨19, _⟩ => ⟨S600000x1, .i32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x128, .f32⟩
  | .hbm, ⟨31, _⟩ => ⟨S_, .f32⟩
  | .hbm, ⟨32, _⟩ => ⟨S100000x128, .f32⟩
  | .hbm, ⟨33, _⟩ => ⟨S600000x1, .i32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000x128, .f32⟩
  | .hbm, ⟨46, _⟩ => ⟨S_, .f32⟩
  | .hbm, ⟨47, _⟩ => ⟨S100000x128, .f32⟩
  | .hbm, ⟨48, _⟩ => ⟨S600000x1, .i32⟩
  | .hbm, ⟨49, _⟩ => ⟨S100000x128, .f32⟩
  | .hbm, ⟨50, _⟩ => ⟨S128x1, .f32⟩
  | .hbm, ⟨51, _⟩ => ⟨S128x1, .f32⟩
  | .hbm, ⟨52, _⟩ => ⟨S128x2, .f32⟩
  | .hbm, ⟨53, _⟩ => ⟨S1x128, .f32⟩
  | .hbm, ⟨54, _⟩ => ⟨S100000x2, .f32⟩
  | .hbm, ⟨55, _⟩ => ⟨S1x200000, .i32⟩
  | .hbm, ⟨56, _⟩ => ⟨S200000, .i32⟩
  | .hbm, ⟨57, _⟩ => ⟨S1x200000, .i32⟩
  | .hbm, ⟨58, _⟩ => ⟨S200000, .i32⟩
  | .hbm, ⟨59, _⟩ => ⟨S100000x1, .f32⟩
  | .hbm, ⟨60, _⟩ => ⟨S100000, .f32⟩
  | .hbm, ⟨61, _⟩ => ⟨S100000x1, .f32⟩
  | .hbm, ⟨62, _⟩ => ⟨S100000, .f32⟩
  | .hbm, ⟨63, _⟩ => ⟨S_, .i32⟩
  | .hbm, ⟨64, _⟩ => ⟨S200000, .i32⟩
  | .hbm, ⟨65, _⟩ => ⟨S200000, .i1⟩
  | .hbm, ⟨66, _⟩ => ⟨S_, .i32⟩
  | .hbm, ⟨67, _⟩ => ⟨S200000, .i32⟩
  | .hbm, ⟨68, _⟩ => ⟨S200000, .i32⟩
  | .hbm, ⟨69, _⟩ => ⟨S200000, .i32⟩
  | .hbm, ⟨70, _⟩ => ⟨S200000x1, .i32⟩
  | .hbm, ⟨71, _⟩ => ⟨S200000, .f32⟩
  | .hbm, ⟨72, _⟩ => ⟨S_, .i32⟩
  | .hbm, ⟨73, _⟩ => ⟨S200000, .i32⟩
  | .hbm, ⟨74, _⟩ => ⟨S200000, .i1⟩
  | .hbm, ⟨75, _⟩ => ⟨S_, .i32⟩
  | .hbm, ⟨76, _⟩ => ⟨S200000, .i32⟩
  | .hbm, ⟨77, _⟩ => ⟨S200000, .i32⟩
  | .hbm, ⟨78, _⟩ => ⟨S200000, .i32⟩
  | .hbm, ⟨79, _⟩ => ⟨S200000x1, .i32⟩
  | .hbm, ⟨80, _⟩ => ⟨S200000, .f32⟩
  | .hbm, ⟨81, _⟩ => ⟨S200000, .f32⟩
  | .hbm, ⟨82, _⟩ => ⟨S_, .f32⟩
  | .hbm, ⟨83, _⟩ => ⟨S200000, .f32⟩
  | .hbm, ⟨84, _⟩ => ⟨S200000, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S128x2, .f32⟩
  | .local _ .vmem, ⟨21, _⟩ => ⟨S5000x2, .f32⟩
  | .local _ .vmem, ⟨22, _⟩ => ⟨S5000x2, .f32⟩
  | _, _ => ⟨S2x600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_6 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_8 : Ref sig .tc := ⟨.hbm, 72, rfl⟩
abbrev main_v51 : Ref sig .tc := ⟨.hbm, 73, rfl⟩
abbrev main_v52 : Ref sig .tc := ⟨.hbm, 74, rfl⟩
abbrev main_c_9 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x2 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  slices_S256x1_S128x1_0_0 : S256x1.Slices ![0, 0] S128x1
  slices_S256x1_S128x1_128_0 : S256x1.Slices ![128, 0] S128x1
  concatenates_S128x1_S128x1_S128x2_d1 : Shape.Concatenates [S128x1, S128x1] S128x2 1
  inb_S128x2_S128x2_0_0 : ∀ a, (![0, 0] : Fin 2 → Nat) a + S128x2.size a ≤ S128x2.size a
  h_S128x2 : 0 < S128x2.numel
  shapeCasts_S128x2_S128x2 : S128x2.ShapeCasts S128x2
  inb_S5000x2_S5000x2_0_0 : ∀ a, (![0, 0] : Fin 2 → Nat) a + S5000x2.size a ≤ S5000x2.size a
  h_S5000x2 : 0 < S5000x2.numel
  slices_S2x200000_S1x200000_0_0 : S2x200000.Slices ![0, 0] S1x200000
  shapeCasts_S1x200000_S200000 : S1x200000.ShapeCasts S200000
  slices_S2x200000_S1x200000_1_0 : S2x200000.Slices ![1, 0] S1x200000
  slices_S100000x2_S100000x1_0_0 : S100000x2.Slices ![0, 0] S100000x1
  shapeCasts_S100000x1_S100000 : S100000x1.ShapeCasts S100000
  slices_S100000x2_S100000x1_0_1 : S100000x2.Slices ![0, 1] S100000x1
  bcast_S_S200000 : S_.BroadcastsInDim S200000 (![] : Fin 0 → Fin S200000.rank)
  bcast_S200000_S200000x1_0 : S200000.BroadcastsInDim S200000x1 (![0] : Fin 1 → Fin S200000x1.rank)
  shapeCasts_S1_S_ : S1.ShapeCasts S_
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  gather_S100000_S200000x1_S200000_n_0_n_n_0_1_1_wf : GatherDims.WF S100000 S200000x1 S200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x2.size a ≤ S128x2.size a
  hwx1_6 : ∀ i : grid1.Coords, EltTy.bits .f32 = 32 ∨ (Rect.block (s := S128x2) S128x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf
def gather_S100000_S200000x1_S200000_n_0_n_n_0_1_1 : GatherDims S100000 S200000x1 S200000 where
  offsetDims := []
  collapsedSliceDims := [0]
  operandBatchingDims := []
  startIndicesBatchingDims := []
  startIndexMap := [0]
  indexVectorDim := 1
  sliceSizes := ![1]
  wf := gather_S100000_S200000x1_S200000_n_0_n_n_0_1_1_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S128x2.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S5000x2.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S2x600000 : Shape := ⟨2, ![2, 600000]⟩
abbrev S2x200000 : Shape := ⟨2, ![2, 200000]⟩
abbrev S100000x128 : Shape := ⟨2, ![100000, 128]⟩
abbrev S128x128 : Shape := ⟨2, ![128, 128]⟩
abbrev S128 : Shape := ⟨1, ![128]⟩
abbrev S256x1 : Shape := ⟨2, ![256, 1]⟩
abbrev S1 : Shape := ⟨1, ![1]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S100000 : Shape := ⟨1, ![100000]⟩
abbrev S100000x1 : Shape := ⟨2, ![100000, 1]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S200000x256 : Shape := ⟨2, ![200000, 256]⟩
abbrev S1x1 : Shape := ⟨2, ![1, 1]⟩

abbrev nBuf : Space → Nat
  | .hbm => 108
  | .vmem => 0
  | .smem => 0
  | _ => 0

abbrev bufTy : (tb : Table) → Fin (tcTables nBuf tb) → BufTy
  | .hbm, ⟨0, _⟩ => ⟨S2x600000, .i32⟩
  | .hbm, ⟨1, _⟩ => ⟨S2x200000, .i32⟩
  | .hbm, ⟨2, _⟩ => ⟨S100000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S256x1, .f32⟩
  | .hbm, ⟨10, _⟩ => ⟨S1, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .f32⟩
  | .hbm, ⟨25, _⟩ => ⟨S100000x128, .f32⟩
  | .hbm, ⟨26, _⟩ => ⟨S600000x1, .i32⟩
  | .hbm, ⟨27, _⟩ => ⟨S100000x128, .f32⟩
  | .hbm, ⟨28, _⟩ => ⟨S_, .f32⟩
  | .hbm, ⟨29, _⟩ => ⟨S600000, .f32⟩
  | .hbm, ⟨30, _⟩ => ⟨S_, .f32⟩
  | .hbm, ⟨31, _⟩ => ⟨S100000, .f32⟩
  | .hbm, ⟨32, _⟩ => ⟨S600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .f32⟩
  | .hbm, ⟨58, _⟩ => ⟨S_, .f32⟩
  | .hbm, ⟨59, _⟩ => ⟨S100000x128, .f32⟩
  | .hbm, ⟨60, _⟩ => ⟨S600000x1, .i32⟩
  | .hbm, ⟨61, _⟩ => ⟨S100000x128, .f32⟩
  | .hbm, ⟨62, _⟩ => ⟨S_, .f32⟩
  | .hbm, ⟨63, _⟩ => ⟨S600000, .f32⟩
  | .hbm, ⟨64, _⟩ => ⟨S_, .f32⟩
  | .hbm, ⟨65, _⟩ => ⟨S100000, .f32⟩
  | .hbm, ⟨66, _⟩ => ⟨S600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S1x200000, .i32⟩
  | .hbm, ⟨81, _⟩ => ⟨S200000, .i32⟩
  | .hbm, ⟨82, _⟩ => ⟨S1x200000, .i32⟩
  | .hbm, ⟨83, _⟩ => ⟨S200000, .i32⟩
  | .hbm, ⟨84, _⟩ => ⟨S_, .i32⟩
  | .hbm, ⟨85, _⟩ => ⟨S200000, .i32⟩
  | .hbm, ⟨86, _⟩ => ⟨S200000, .i1⟩
  | .hbm, ⟨87, _⟩ => ⟨S_, .i32⟩
  | .hbm, ⟨88, _⟩ => ⟨S200000, .i32⟩
  | .hbm, ⟨89, _⟩ => ⟨S200000, .i32⟩
  | .hbm, ⟨90, _⟩ => ⟨S200000, .i32⟩
  | .hbm, ⟨91, _⟩ => ⟨S200000x1, .i32⟩
  | .hbm, ⟨92, _⟩ => ⟨S200000x128, .f32⟩
  | .hbm, ⟨93, _⟩ => ⟨S_, .i32⟩
  | .hbm, ⟨94, _⟩ => ⟨S200000, .i32⟩
  | .hbm, ⟨95, _⟩ => ⟨S200000, .i1⟩
  | .hbm, ⟨96, _⟩ => ⟨S_, .i32⟩
  | .hbm, ⟨97, _⟩ => ⟨S200000, .i32⟩
  | .hbm, ⟨98, _⟩ => ⟨S200000, .i32⟩
  | .hbm, ⟨99, _⟩ => ⟨S200000, .i32⟩
  | .hbm, ⟨100, _⟩ => ⟨S200000x1, .i32⟩
  | .hbm, ⟨101, _⟩ => ⟨S200000x128, .f32⟩
  | .hbm, ⟨102, _⟩ => ⟨S200000x256, .f32⟩
  | .hbm, ⟨103, _⟩ => ⟨S200000x1, .f32⟩
  | .hbm, ⟨104, _⟩ => ⟨S1x1, .f32⟩
  | .hbm, ⟨105, _⟩ => ⟨S200000x1, .f32⟩
  | .hbm, ⟨106, _⟩ => ⟨S200000x1, .f32⟩
  | .hbm, ⟨107, _⟩ => ⟨S200000, .f32⟩
  | _, _ => ⟨S2x600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_10 : Ref sig .tc := ⟨.hbm, 84, rfl⟩
abbrev main_v59 : Ref sig .tc := ⟨.hbm, 85, rfl⟩
abbrev main_v60 : Ref sig .tc := ⟨.hbm, 86, rfl⟩
abbrev main_c_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_12 : Ref sig .tc := ⟨.hbm, 93, rfl⟩
abbrev main_v66 : Ref sig .tc := ⟨.hbm, 94, rfl⟩
abbrev main_v67 : Ref sig .tc := ⟨.hbm, 95, rfl⟩
abbrev main_c_13 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  concatenates_S200000x128_S200000x128_S200000x256_d1 : Shape.Concatenates [S200000x128, S200000x128] S200000x256 1
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  shapeCasts_S200000x1_S200000 : S200000x1.ShapeCasts S200000
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S200000x1_S200000x128_1_0_n_n_0_1_1128_wf : GatherDims.WF S100000x128 S200000x1 S200000x128 [1] [0] [] [0] [] 1 ![1, 128]
  dot_S200000x256_S256x1_S200000x1_1_0_0_1_n_n_wf : DotDims.WF S200000x256 S256x1 S200000x1 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.KernelRun.lean ====
/-
  The tiled program's run with its result named: every weakly fair execution terminates, nothing faults, the
  argument arrays end as launched, and the result array ends holding what the last stretch of host operations
  leaves in it — the contents at the last boundary of the fold through the program (host stretch, first region,
  host stretch, second region, host stretch).
-/
import proofs.«139499_j8246337208621_2_alg».proof.Proof.Gen.KernelIdeal.Frame

set_option maxRecDepth 16384

noncomputable section

namespace Cert.Sage.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer at the last boundary's contents, the arguments as launched. -/
theorem run : θ_run defs (onTc (τ := τ) (main (F := F))) ⟨m, fun _ => 0, ρ⟩ (fun r => ∀ c : Dev nD,
      r.2.mem ((c.tc : Thread nD τ).loc main_v61) = W5 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v61 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.Sage.KernelRun

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«139499_j8246337208621_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.Spec.lean ====
/-
  The mathematics both programs compute, over the extended reals, stated once for arrays of any number of rows.

  A layer of the network takes, for every node, the sum of its in-neighbours' feature rows and the node's in-degree,
  divides the first by the second (clipped below at one), multiplies the quotient by one weight matrix, the node's own
  row by another, and adds a bias. Each row of the result depends on the same row of the operands only, so a layer
  computed on a band of rows is the band of the layer computed on all rows. The last step scores a pair of nodes
  (a, b) by the product of the two rows laid side by side with a column of 2K weights; that product is the product
  of row a with the upper half of the column plus the product of row b with the lower half, because a finite sum over
  2K terms splits at K, and addition of extended reals is commutative and associative (no subtraction or
  cancellation is used anywhere, so infinite entries need no special care).
-/
import proofs.«139499_j8246337208621_2_alg».proof.Proof.LibDense

noncomputable section

namespace Cert.Sage

open Idealize.ShloMosaic Idealize.ShloMosaic.ValueIdx Cert.LayoutLib Cert.DenseLib

/-- The float word of the number one, read as an extended real. Both programs carry this same word; it is never
    evaluated. -/
abbrev oneE : EReal := Ideal.ofBits .f32 0x3F800000#32

/-- Mean aggregation: each row of the neighbour sums divided by the row's in-degree, clipped below at one. The
    in-degrees arrive as a one-column array. -/
def meanAgg {M C : ℕ} (msg : (⟨2, ![M, C]⟩ : Shape).Idx → EReal) (cnt : (⟨2, ![M, 1]⟩ : Shape).Idx → EReal) :
    (⟨2, ![M, C]⟩ : Shape).Idx → EReal :=
  fun i => Ideal.div (msg i) (max (cnt (ix2 (n0 := M) (i 0) (0 : Fin 1))) oneE)

theorem meanAgg_apply {M C : ℕ} (msg : (⟨2, ![M, C]⟩ : Shape).Idx → EReal) (cnt : (⟨2, ![M, 1]⟩ : Shape).Idx → EReal)
    (p : Fin M) (k : Fin C) :
    meanAgg msg cnt (ix2 p k) = Ideal.div (msg (ix2 p k)) (max (cnt (ix2 p (0 : Fin 1))) oneE) := rfl

/-- One layer before any cut at zero, in the order a row band adds its three terms: neighbours, own row, bias. -/
def layer {M K N : ℕ} (msg : (⟨2, ![M, K]⟩ : Shape).Idx → EReal) (cnt : (⟨2, ![M, 1]⟩ : Shape).Idx → EReal)
    (x : (⟨2, ![M, K]⟩ : Shape).Idx → EReal) (Wl Wr : (⟨2, ![K, N]⟩ : Shape).Idx → EReal) (b : Fin N → EReal) :
    (⟨2, ![M, N]⟩ : Shape).Idx → EReal :=
  plus (plus (mm (meanAgg msg cnt) Wl) (mm x Wr)) (rows b)

theorem layer_apply {M K N : ℕ} (msg : (⟨2, ![M, K]⟩ : Shape).Idx → EReal) (cnt : (⟨2, ![M, 1]⟩ : Shape).Idx → EReal)
    (x : (⟨2, ![M, K]⟩ : Shape).Idx → EReal) (Wl Wr : (⟨2, ![K, N]⟩ : Shape).Idx → EReal) (b : Fin N → EReal)
    (p : Fin M) (q : Fin N) :
    layer msg cnt x Wl Wr b (ix2 p q) = mm (meanAgg msg cnt) Wl (ix2 p q) + mm x Wr (ix2 p q) + b q := rfl

/-- The same layer with the bias added before the node's own term: a + c + b = a + b + c. -/
theorem layer_eq_bias_first {M K N : ℕ} (msg : (⟨2, ![M, K]⟩ : Shape).Idx → EReal) (cnt : (⟨2, ![M, 1]⟩ : Shape).Idx → EReal)
    (x : (⟨2, ![M, K]⟩ : Shape).Idx → EReal) (Wl Wr : (⟨2, ![K, N]⟩ : Shape).Idx → EReal) (b : Fin N → EReal) :
    plus (plus (mm (meanAgg msg cnt) Wl) (rows b)) (mm x Wr) = layer msg cnt x Wl Wr b :=
  funext fun _ => add_right_comm _ _ _

/-- Row p of the aggregation depends on row p of the sums and of the in-degrees only. -/
theorem meanAgg_row {M M' C : ℕ} (msg : (⟨2, ![M, C]⟩ : Shape).Idx → EReal) (msg' : (⟨2, ![M', C]⟩ : Shape).Idx → EReal)
    (cnt : (⟨2, ![M, 1]⟩ : Shape).Idx → EReal) (cnt' : (⟨2, ![M', 1]⟩ : Shape).Idx → EReal) (p : Fin M) (p' : Fin M')
    (hm : ∀ k, msg (ix2 p k) = msg' (ix2 p' k)) (hc : cnt (ix2 p (0 : Fin 1)) = cnt' (ix2 p' (0 : Fin 1))) (k : Fin C) :
    meanAgg msg cnt (ix2 p k) = meanAgg msg' cnt' (ix2 p' k) := by
  rw [meanAgg_apply, meanAgg_apply, hm k, hc]

/-- Row p of a layer depends on row p of its three row-indexed operands only: a layer computed on a band of rows is
    that band of the layer computed on all rows. -/
theorem layer_row {M M' K N : ℕ} (msg : (⟨2, ![M, K]⟩ : Shape).Idx → EReal) (msg' : (⟨2, ![M', K]⟩ : Shape).Idx → EReal)
    (cnt : (⟨2, ![M, 1]⟩ : Shape).Idx → EReal) (cnt' : (⟨2, ![M', 1]⟩ : Shape).Idx → EReal)
    (x : (⟨2, ![M, K]⟩ : Shape).Idx → EReal) (x' : (⟨2, ![M', K]⟩ : Shape).Idx → EReal)
    (Wl Wr : (⟨2, ![K, N]⟩ : Shape).Idx → EReal) (b : Fin N → EReal) (p : Fin M) (p' : Fin M')
    (hm : ∀ k, msg (ix2 p k) = msg' (ix2 p' k)) (hc : cnt (ix2 p (0 : Fin 1)) = cnt' (ix2 p' (0 : Fin 1)))
    (hx : ∀ k, x (ix2 p k) = x' (ix2 p' k)) (q : Fin N) :
    layer msg cnt x Wl Wr b (ix2 p q) = layer msg' cnt' x' Wl Wr b (ix2 p' q) := by
  rw [layer_apply, layer_apply,
    mm_row (meanAgg msg cnt) (meanAgg msg' cnt') Wl p p' (meanAgg_row msg msg' cnt cnt' p p' hm hc) q,
    mm_row x x' Wr p p' hx q]

/-- A sum over 2K terms of a row laid out as two halves of K, against a column of 2K weights, is the upper half's
    sum plus the lower half's. -/
theorem pair_sum_split {K : ℕ} (u v : Fin K → EReal) (w : Fin (K + K) → EReal) (f : Fin (K + K) → EReal)
    (hl : ∀ k : Fin K, f (Fin.castAdd K k) = u k) (hr : ∀ k : Fin K, f (Fin.natAdd K k) = v k) :
    ∑ k : Fin (K + K), f k * w k
      = ∑ k : Fin K, u k * w (Fin.castAdd K k) + ∑ k : Fin K, v k * w (Fin.natAdd K k) := by
  rw [Fin.sum_univ_add]
  congr 1
  · exact Finset.sum_congr rfl fun k _ => by rw [hl k]
  · exact Finset.sum_congr rfl fun k _ => by rw [hr k]

/-! ## The two spellings of the aggregation -/

/-- A vector unit divides the band of sums by the in-degree column, clipped at one and broadcast along the rows. -/
theorem divf_clip_eq_meanAgg {M C : ℕ} (msg : FVec Ideal ⟨2, ![M, C]⟩ .f32) (cnt : FVec Ideal ⟨2, ![M, 1]⟩ .f32)
    (h : (⟨2, ![M, 1]⟩ : Shape).Broadcasts ⟨2, ![M, C]⟩) :
    divf msg (broadcastTo ⟨2, ![M, C]⟩
      (maximumf cnt (broadcast ⟨2, ![M, 1]⟩ (Scalar.ofBits (F := Ideal) .f32 0x3F800000#32))) h) = meanAgg msg cnt := by
  funext i
  obtain ⟨p, k, rfl⟩ : ∃ (p : Fin M) (k : Fin C), i = ix2 p k := ⟨i 0, i 1, eq_ix2 i⟩
  rw [divf_apply, broadcastTo_col_apply, maximumf_apply, broadcast_apply, meanAgg_apply]
  rfl

/-- A host program divides all rows at once by the in-degree vector, clipped at one, made a column and broadcast
    along the rows; the column is the vector recast. -/
theorem hostDivf_clip_eq_meanAgg {M C : ℕ} (msg : FVec Ideal ⟨2, ![M, C]⟩ .f32) (cnt : FVec Ideal ⟨1, ![M]⟩ .f32)
    (h0 : (⟨0, ![]⟩ : Shape).BroadcastsInDim ⟨1, ![M]⟩ (![] : Fin 0 → Fin 1))
    (h1 : (⟨1, ![M]⟩ : Shape).BroadcastsInDim ⟨2, ![M, 1]⟩ (![0] : Fin 1 → Fin 2))
    (h2 : (⟨2, ![M, 1]⟩ : Shape).BroadcastsInDim ⟨2, ![M, C]⟩ (![0, 1] : Fin 2 → Fin 2))
    (hc : (⟨1, ![M]⟩ : Shape).ShapeCasts ⟨2, ![M, 1]⟩) :
    Host.divf msg (broadcastInDim ⟨2, ![M, C]⟩ ![0, 1] h2 (broadcastInDim ⟨2, ![M, 1]⟩ ![0] h1
      (maximumf cnt (broadcastInDim ⟨1, ![M]⟩ ![] h0 (constant (F := Ideal) ⟨0, ![]⟩ .f32 0x3F800000#32)))))
      = meanAgg msg (shapeCast ⟨2, ![M, 1]⟩ cnt hc) := by
  funext i
  obtain ⟨p, k, rfl⟩ : ∃ (p : Fin M) (k : Fin C), i = ix2 p k := ⟨i 0, i 1, eq_ix2 i⟩
  rw [meanAgg_apply, shapeCast_col_apply]
  show Ideal.div (msg (ix2 p k)) (broadcastInDim ⟨2, ![M, C]⟩ (![0, 1] : Fin 2 → Fin 2) h2
      (broadcastInDim ⟨2, ![M, 1]⟩ (![0] : Fin 1 → Fin 2) h1
        (maximumf cnt (broadcastInDim ⟨1, ![M]⟩ (![] : Fin 0 → Fin 1) h0 (constant (F := Ideal) ⟨0, ![]⟩ .f32 0x3F800000#32))))
      (ix2 p k)) = _
  rw [broadcastInDim_col_apply, broadcastInDim_vecCol_apply, maximumf_apply, broadcastInDim_scalar_apply]
  rfl

/-! ## A band of rows -/

/-- The layer computed on the band of B rows starting at row o, from the bands of its three row-indexed operands, is
    that band of the layer computed on all M rows. -/
theorem layer_band {M B K N : ℕ} (o : ℕ)
    (msg : (⟨2, ![M, K]⟩ : Shape).Idx → EReal) (cnt : (⟨2, ![M, 1]⟩ : Shape).Idx → EReal) (x : (⟨2, ![M, K]⟩ : Shape).Idx → EReal)
    (msgB : (⟨2, ![B, K]⟩ : Shape).Idx → EReal) (cntB : (⟨2, ![B, 1]⟩ : Shape).Idx → EReal) (xB : (⟨2, ![B, K]⟩ : Shape).Idx → EReal)
    (Wl Wr : (⟨2, ![K, N]⟩ : Shape).Idx → EReal) (b : Fin N → EReal)
    (r : Fin B) (p : Fin M) (hp : p.val = o + r.val)
    (hm : ∀ (p : Fin M), p.val = o + r.val → ∀ k, msgB (ix2 r k) = msg (ix2 p k))
    (hc : ∀ (p : Fin M), p.val = o + r.val → cntB (ix2 r (0 : Fin 1)) = cnt (ix2 p (0 : Fin 1)))
    (hx : ∀ (p : Fin M), p.val = o + r.val → ∀ k, xB (ix2 r k) = x (ix2 p k)) (q : Fin N) :
    layer msgB cntB xB Wl Wr b (ix2 r q) = layer msg cnt x Wl Wr b (ix2 p q) :=
  layer_row msgB msg cntB cnt xB x Wl Wr b r p (hm p hp) (hc p hp) (hx p hp) q

/-! ## The score of a pair of nodes -/

/-- Position k of the upper half of a column of 256. -/
def upHalf (k : Fin 128) : Fin 256 := ⟨k.val, by have := k.isLt; omega⟩

/-- Position k of the lower half of a column of 256. -/
def loHalf (k : Fin 128) : Fin 256 := ⟨128 + k.val, by have := k.isLt; omega⟩

/-- The score of the pair of nodes (a, b): row a of the features against the upper half of the weight column, plus
    row b against the lower half, plus the offset. -/
def pairScore {N K T : ℕ} (X : (⟨2, ![N, K]⟩ : Shape).Idx → EReal) (w : (⟨2, ![T, 1]⟩ : Shape).Idx → EReal) (β : EReal)
    (up lo : Fin K → Fin T) (a b : Fin N) : EReal :=
  (∑ k : Fin K, X (ix2 a k) * w (ix2 (up k) (0 : Fin 1)) + ∑ k : Fin K, X (ix2 b k) * w (ix2 (lo k) (0 : Fin 1))) + β

end Cert.Sage

end
-- ==== Proof.Body.lean ====
/-
  What each of the two tiled regions computes on one band of 5000 rows, as the layer of the specification.

  The first region's band is the layer of its three band operands and the two weight matrices, cut at zero. The
  second region's band is the layer (no cut) multiplied by the two-column weight matrix. Over the extended reals
  the changes of float format are the identity, a product accumulated into zeros is the product, and a recast of
  an array to its own shape is the array.
-/
import proofs.«139499_j8246337208621_2_alg».proof.Proof.Gen.KernelIdeal.Skeleton
import proofs.«139499_j8246337208621_2_alg».proof.Proof.Spec

noncomputable section

namespace Cert.Sage.Body

open Idealize.ShloMosaic Idealize.ShloMosaic.ValueIdx Cert.LayoutLib Cert.DenseLib Cert.Sage
open Cert.KernelIdeal Cert.KernelIdeal.Gen

/-- The band-by-matrix product's dimension numbers are the plain ones. -/
theorem dot_band_plain : dot_S5000x128_S128x128_S5000x128_1_0_0_1_n_n = DotDims.plain 5000 128 128 := rfl

/-- So are those of the product with the two-column matrix. -/
theorem dot_score_plain : dot_S5000x128_S128x2_S5000x2_1_0_0_1_n_n = DotDims.plain 5000 128 2 := rfl

/-- The first region's band: the layer, cut at zero. -/
theorem pay0_eq (v0 : Vec Ideal S5000x1 .f32) (v4 v9 : Vec Ideal S5000x128 .f32) (v11 v13 : Vec Ideal S128x128 .f32)
    (v18 : Vec Ideal S1x128 .f32) :
    k0_pay1 (F := Ideal) v0 v4 v9 v11 v13 v18
      = relu (layer v4 v0 v9 v11 v13 (fun q => v18 (ix2 (0 : Fin 1) q))) := by
  unfold k0_pay1
  dsimp only
  rw [maximumf_splat_zero, addf_eq_plus, addf_eq_plus, broadcastTo_eq_rows]
  simp only [shapeCast_self, truncf_eq]
  rw [matmul_eq_mm _ dot_band_plain, matmul_eq_mm _ dot_band_plain, divf_clip_eq_meanAgg]
  rfl

/-- The second region's band: the layer, then the product with the two-column matrix. -/
theorem pay1_eq (v0 : Vec Ideal S5000x1 .f32) (v4 v9 : Vec Ideal S5000x128 .f32) (v12 v14 : Vec Ideal S128x128 .f32)
    (v19 : Vec Ideal S1x128 .f32) (v24 : Vec Ideal S128x2 .f32) :
    k1_pay1 (F := Ideal) v0 v4 v9 v12 v14 v19 v24
      = mm (layer v4 v0 v9 v12 v14 (fun q => v19 (ix2 (0 : Fin 1) q))) v24 := by
  unfold k1_pay1
  dsimp only
  simp only [shapeCast_self, truncf_eq]
  rw [matmul_eq_mm _ dot_score_plain, addf_eq_plus, addf_eq_plus, broadcastTo_eq_rows,
    matmul_eq_mm _ dot_band_plain, matmul_eq_mm _ dot_band_plain, divf_clip_eq_meanAgg]
  rfl

end Cert.Sage.Body

end
-- ==== Proof.Region0.lean ====
/-
  The first tiled region, for ANY contents V the region is entered with: its output array after the region is the first
  layer, cut at zero, of the arrays V holds — all 100000 rows at once. Each of the twenty grid points computes the band
  of 5000 rows it is numbered by and writes it back; a band of the layer is the layer of the bands; the bands tile the rows.
-/
import proofs.«139499_j8246337208621_2_alg».proof.Proof.Gen.KernelIdeal.Frame
import proofs.«139499_j8246337208621_2_alg».proof.Proof.Body
import Idealize.ShloMosaic.Lib.Pipeline.Value

set_option maxRecDepth 16384

noncomputable section

namespace Cert.Sage.Region0

open Idealize.ShloMosaic Idealize.ShloMosaic.TcCoe Idealize.SL.Sem Idealize.ShloMosaic.ValueIdx
open Idealize.ShloMosaic.Pipeline (Dat)
open Cert.LayoutLib Cert.DenseLib Cert.Sage Cert.Sage.Body
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The first layer's output as one function of the arrays the region finds: sums, in-degrees, features, the two weight matrices, the bias row. -/
def X1 (c : Dev nD) : S100000x128.Idx → EReal :=
  relu (layer (V c main_v18 : S100000x128.Idx → EReal) (V c main_v8 : S100000x1.Idx → EReal) (V c main_arg2 : S100000x128.Idx → EReal)
    (V c main_arg3 : S128x128.Idx → EReal) (V c main_arg5 : S128x128.Idx → EReal) (fun q => (V c main_v19 : S1x128.Idx → EReal) (ix2 (0 : Fin 1) q)))

/-- The printed index maps, decided once over the grid's twenty points: a row-banded window sits at block (t, 0) at
    point t, a whole window at block (0, 0). -/
theorem idx_facts : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

/-- Window 0's block at point t is rows 5000·t … 5000·t + 4999 of its array. -/
theorem blk_0 (c : Dev nD) (t : Fin cfg0.N) (r : Fin 5000) (j : Fin 128) (p : Fin 100000) (hp : p.val = 5000 * t.val + r.val) :
    (iblk0 V c 0 t : S5000x128.Idx → EReal) (ix2 r j) = (V c main_v18 : S100000x128.Idx → EReal) (ix2 p j) := by
  obtain ⟨e0_0, e0_1, e1_0, e1_1, e2_0, e2_1, e3_0, e3_1, e4_0, e4_1, e5_0, e5_1, e6_0, e6_1⟩ := idx_facts t
  unfold iblk0
  rw [View.read_apply]
  show (V c main_v18 : S100000x128.Idx → EReal) _ = _
  congr 1
  funext a; apply Fin.ext
  match a with
  | ⟨0, _⟩ => show win0_0.index t (0 : Fin 2) * 5000 + 1 * r.val = p.val; rw [e0_0, hp]; omega
  | ⟨1, _⟩ => show win0_0.index t (1 : Fin 2) * 128 + 1 * j.val = j.val; rw [e0_1]; omega

/-- Window 1's block at point t is rows 5000·t … 5000·t + 4999 of its array. -/
theorem blk_1 (c : Dev nD) (t : Fin cfg0.N) (r : Fin 5000) (j : Fin 1) (p : Fin 100000) (hp : p.val = 5000 * t.val + r.val) :
    (iblk0 V c 1 t : S5000x1.Idx → EReal) (ix2 r j) = (V c main_v8 : S100000x1.Idx → EReal) (ix2 p j) := by
  obtain ⟨e0_0, e0_1, e1_0, e1_1, e2_0, e2_1, e3_0, e3_1, e4_0, e4_1, e5_0, e5_1, e6_0, e6_1⟩ := idx_facts t
  unfold iblk0
  rw [View.read_apply]
  show (V c main_v8 : S100000x1.Idx → EReal) _ = _
  congr 1
  funext a; apply Fin.ext
  match a with
  | ⟨0, _⟩ => show win0_1.index t (0 : Fin 2) * 5000 + 1 * r.val = p.val; rw [e1_0, hp]; omega
  | ⟨1, _⟩ => show win0_1.index t (1 : Fin 2) * 1 + 1 * j.val = j.val; rw [e1_1]; omega

/-- Window 2's block at point t is rows 5000·t … 5000·t + 4999 of its array. -/
theorem blk_2 (c : Dev nD) (t : Fin cfg0.N) (r : Fin 5000) (j : Fin 128) (p : Fin 100000) (hp : p.val = 5000 * t.val + r.val) :
    (iblk0 V c 2 t : S5000x128.Idx → EReal) (ix2 r j) = (V c main_arg2 : S100000x128.Idx → EReal) (ix2 p j) := by
  obtain ⟨e0_0, e0_1, e1_0, e1_1, e2_0, e2_1, e3_0, e3_1, e4_0, e4_1, e5_0, e5_1, e6_0, e6_1⟩ := idx_facts t
  unfold iblk0
  rw [View.read_apply]
  show (V c main_arg2 : S100000x128.Idx → EReal) _ = _
  congr 1
  funext a; apply Fin.ext
  match a with
  | ⟨0, _⟩ => show win0_2.index t (0 : Fin 2) * 5000 + 1 * r.val = p.val; rw [e2_0, hp]; omega
  | ⟨1, _⟩ => show win0_2.index t (1 : Fin 2) * 128 + 1 * j.val = j.val; rw [e2_1]; omega

/-- Window 3's one block is its whole array, at every point. -/
theorem blk_3 (c : Dev nD) (t : Fin cfg0.N) :
    (iblk0 V c 3 t : S128x128.Idx → EReal) = (V c main_arg3 : S128x128.Idx → EReal) := by
  obtain ⟨e0_0, e0_1, e1_0, e1_1, e2_0, e2_1, e3_0, e3_1, e4_0, e4_1, e5_0, e5_1, e6_0, e6_1⟩ := idx_facts t
  unfold iblk0
  funext y
  rw [View.read_apply]
  show (V c main_arg3 : S128x128.Idx → EReal) _ = _
  congr 1
  funext a; apply Fin.ext
  match a with
  | ⟨0, _⟩ => show win0_3.index t (0 : Fin 2) * 128 + 1 * (y 0).val = (y 0).val; rw [e3_0]; omega
  | ⟨1, _⟩ => show win0_3.index t (1 : Fin 2) * 128 + 1 * (y 1).val = (y 1).val; rw [e3_1]; omega

/-- Window 4's one block is its whole array, at every point. -/
theorem blk_4 (c : Dev nD) (t : Fin cfg0.N) :
    (iblk0 V c 4 t : S128x128.Idx → EReal) = (V c main_arg5 : S128x128.Idx → EReal) := by
  obtain ⟨e0_0, e0_1, e1_0, e1_1, e2_0, e2_1, e3_0, e3_1, e4_0, e4_1, e5_0, e5_1, e6_0, e6_1⟩ := idx_facts t
  unfold iblk0
  funext y
  rw [View.read_apply]
  show (V c main_arg5 : S128x128.Idx → EReal) _ = _
  congr 1
  funext a; apply Fin.ext
  match a with
  | ⟨0, _⟩ => show win0_4.index t (0 : Fin 2) * 128 + 1 * (y 0).val = (y 0).val; rw [e4_0]; omega
  | ⟨1, _⟩ => show win0_4.index t (1 : Fin 2) * 128 + 1 * (y 1).val = (y 1).val; rw [e4_1]; omega

/-- Window 5's one block is its whole array, at every point. -/
theorem blk_5 (c : Dev nD) (t : Fin cfg0.N) :
    (iblk0 V c 5 t : S1x128.Idx → EReal) = (V c main_v19 : S1x128.Idx → EReal) := by
  obtain ⟨e0_0, e0_1, e1_0, e1_1, e2_0, e2_1, e3_0, e3_1, e4_0, e4_1, e5_0, e5_1, e6_0, e6_1⟩ := idx_facts t
  unfold iblk0
  funext y
  rw [View.read_apply]
  show (V c main_v19 : S1x128.Idx → EReal) _ = _
  congr 1
  funext a; apply Fin.ext
  match a with
  | ⟨0, _⟩ => show win0_5.index t (0 : Fin 2) * 1 + 1 * (y 0).val = (y 0).val; rw [e5_0]; omega
  | ⟨1, _⟩ => show win0_5.index t (1 : Fin 2) * 128 + 1 * (y 1).val = (y 1).val; rw [e5_1]; omega

/-- Where the output block's entry (r, q) at point t sits in the output array: row 5000·t + r, column q. -/
theorem emb_out (t : Fin cfg0.N) (r : Fin 5000) (q : Fin 128) (p : Fin 100000) (hp : p.val = 5000 * t.val + r.val) :
    ((cfg0.win 6).blk t).view.emb (ix2 r q) = (ix2 p q : S100000x128.Idx) := by
  obtain ⟨e0_0, e0_1, e1_0, e1_1, e2_0, e2_1, e3_0, e3_1, e4_0, e4_1, e5_0, e5_1, e6_0, e6_1⟩ := idx_facts t
  funext a; apply Fin.ext
  match a with
  | ⟨0, _⟩ => show win0_6.index t (0 : Fin 2) * 5000 + 1 * r.val = p.val; rw [e6_0, hp]; omega
  | ⟨1, _⟩ => show win0_6.index t (1 : Fin 2) * 128 + 1 * q.val = q.val; rw [e6_1]; omega

/-- WHAT POINT t WRITES BACK is block t of the whole-array function. -/
theorem flushed_eq (c : Dev nD) (t : Fin cfg0.N) :
    (dat0 (F := Ideal) V c).flushed 6 t = ((cfg0.win 6).blk t).view.read (Elt Ideal) (X1 V c) := by
  show (cfg0.win 6).cut (grid0.coords t) ((dat0 (F := Ideal) V c).after 6 t) = _
  rw [after0_6]
  unfold out0_6
  rw [View.canon_unit_zero hz]
  simp only [View.ld_unit_zero (S := S5000x1) hz, View.ld_unit_zero (S := S5000x128) hz, View.ld_unit_zero (S := S128x128) hz, View.ld_unit_zero (S := S1x128) hz]
  rw [pay0_eq]
  rw [blk_3 V c t, blk_4 V c t, blk_5 V c t]
  funext y
  obtain ⟨r, q, rfl⟩ : ∃ (r : Fin 5000) (q : Fin 128), y = ix2 r q := ⟨y 0, y 1, eq_ix2 y⟩
  have hN : cfg0.N = 20 := N_0
  have hlt : 5000 * t.val + r.val < 100000 := by have := t.isLt; have := r.isLt; omega
  rw [View.read_apply]
  refine Eq.trans ?_ (congrArg (X1 V c) (emb_out t r q ⟨5000 * t.val + r.val, hlt⟩ rfl).symm)
  exact congrArg (fun z : EReal => max z 0) (layer_band (M := 100000) (B := 5000) (K := 128) (N := 128) (5000 * t.val)
      (V c main_v18 : S100000x128.Idx → EReal) (V c main_v8 : S100000x1.Idx → EReal) (V c main_arg2 : S100000x128.Idx → EReal)
      (iblk0 V c 0 t : S5000x128.Idx → EReal) (iblk0 V c 1 t : S5000x1.Idx → EReal) (iblk0 V c 2 t : S5000x128.Idx → EReal)
      (V c main_arg3 : S128x128.Idx → EReal) (V c main_arg5 : S128x128.Idx → EReal) (fun q => (V c main_v19 : S1x128.Idx → EReal) (ix2 (0 : Fin 1) q))
      r ⟨5000 * t.val + r.val, hlt⟩ rfl
      (fun p hp j => blk_0 V c t r j p hp) (fun p hp => blk_1 V c t r (0 : Fin 1) p hp) (fun p hp j => blk_2 V c t r j p hp) q)

/-- An index of the output array is in point t's block iff each coordinate is in the block's range. -/
theorem mem_blk (t : Fin cfg0.N) (i : S100000x128.Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v20).slice (win0_6.rect t)).set ↔ _
  rw [View.set_slice_whole, Rect.mem_set_unit]
  exact Iff.rfl

/-- Every row lies in the band of the point numbered row / 5000, and every point writes its band back. -/
theorem cover (i : S100000x128.Idx) :
    ∃ t : Fin cfg0.N, (cfg0.win 6).flush t = true ∧ i ∈ ((cfg0.win 6).blk t).view.set := by
  have hN : cfg0.N = 20 := N_0
  have hi0 : (i 0).val < 100000 := (i 0).isLt
  have hi1 : (i 1).val < 128 := (i 1).isLt
  have hb : (i 0).val / 5000 < cfg0.N := by rw [hN]; omega
  obtain ⟨e0_0, e0_1, e1_0, e1_1, e2_0, e2_1, e3_0, e3_1, e4_0, e4_1, e5_0, e5_1, e6_0, e6_1⟩ := idx_facts ⟨(i 0).val / 5000, hb⟩
  refine ⟨⟨(i 0).val / 5000, hb⟩, flush0_6 _, ?_⟩
  rw [mem_blk]
  intro a
  match a with
  | ⟨0, _⟩ =>
    show win0_6.index ⟨(i 0).val / 5000, hb⟩ (0 : Fin 2) * 5000 ≤ (i 0).val ∧ (i 0).val < win0_6.index ⟨(i 0).val / 5000, hb⟩ (0 : Fin 2) * 5000 + 5000
    rw [e6_0]
    show (i 0).val / 5000 * 5000 ≤ (i 0).val ∧ (i 0).val < (i 0).val / 5000 * 5000 + 5000
    omega
  | ⟨1, _⟩ =>
    show win0_6.index ⟨(i 0).val / 5000, hb⟩ (1 : Fin 2) * 128 ≤ (i 1).val ∧ (i 1).val < win0_6.index ⟨(i 0).val / 5000, hb⟩ (1 : Fin 2) * 128 + 128
    rw [e6_1]
    omega

/-- THE OUTPUT ARRAY after the region, for any contents the region is entered with: the whole-array function. -/
theorem final (c : Dev nD) : (dat0 (F := Ideal) V c).arrAt 6 cfg0.N = X1 V c :=
  (dat0 (F := Ideal) V c).arrAt_eq_of_cover 6 (X1 V c) (fun t _ => flushed_eq V c t) (cover)

end Cert.Sage.Region0

end
-- ==== Proof.LibRows.lean ====
/-
  General lemmas about whole rows of rank-two arrays: a gather of rows of a table at a column of start indices, read
  at an entry; two arrays of equal height laid side by side, read left and right of the seam; two vectors laid end to
  end; a one-column array cast to a vector; a unit-stride cut of a vector. None mentions a program.
-/
import Idealize.ShloMosaic.Lib.ValueIdx
import Idealize.ShloMosaic.Lib.ValueLayout
import Idealize.ShloMosaic.Lib.Pipeline.Value

noncomputable section

namespace Cert.RowsLib

open Idealize.ShloMosaic Idealize.ShloMosaic.ValueIdx

variable {α : Type}

/-! ## A gather of whole rows -/

/-- The dimension numbers of a gather of whole rows: a table of N rows of C entries, a column of R start indices, a
    result of R rows; the row axis is collapsed and named by the start index, the column axis is the offset axis. -/
abbrev rowGatherDims (N C R : ℕ)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row a start index names: the word read as a signed integer, clamped into the table. -/
def rowOf (N : ℕ) (hN : 0 < N) {w : ℕ} (b : BitVec w) : Fin N := ⟨min b.toInt.toNat (N - 1), by omega⟩

/-- THE ROW GATHER READ AT (r, c): the table at the row that start index r names, column c. -/
theorem gather_rows_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGatherDims N C R wf) x idx (ix2 r c) = x (ix2 (rowOf N hN (idx (ix2 r (0 : Fin 1)))) c) := by
  unfold Host.gather
  congr 1
  funext a
  refine Fin.ext ?_
  match a with
  | ⟨0, _⟩ =>
    show (rowGatherDims N C R wf).start (ix2 r c) idx 0 + (rowGatherDims N C R wf).batchCoord (ix2 r c) 0
      + (rowGatherDims N C R wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C R wf).startIndexMap from List.mem_singleton.mpr rfl)]
    have hsi : (rowGatherDims N C R wf).siIdx (ix2 r c) ⟨List.idxOf (0 : Fin 2) (rowGatherDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N C R wf).start (ix2 r c) idx 1 + (rowGatherDims N C R wf).batchCoord (ix2 r c) 1
      + (rowGatherDims N C R wf).offCoord (ix2 r c) 1 = c.val
    rw [GatherDims.batchCoord_eq_zero _ _ _ List.not_mem_nil]
    unfold GatherDims.start
    rw [dif_neg (show (1 : Fin 2) ∉ (rowGatherDims N C R wf).startIndexMap from (by decide : (1 : Fin 2) ∉ ([0] : List (Fin 2))))]
    unfold GatherDims.offCoord
    rw [dif_pos (show (1 : Fin 2) ∈ (rowGatherDims N C R wf).sKept from
      (GatherDims.mem_sKept _ _).mpr ⟨(by decide : (1 : Fin 2) ∉ ([0] : List (Fin 2))), List.not_mem_nil⟩)]
    simp only [Nat.zero_add]
    rfl

/-! ## Side by side, end to end -/

/-- Two arrays of M rows laid side by side: left of the seam the result reads the first. -/
theorem concat_cols_left {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin A) (k' : Fin T) (hk : k'.val = k.val) :
    concatenate ⟨2, ![M, T]⟩ (1 : Fin 2) [⟨⟨2, ![M, A]⟩, x₁⟩, ⟨⟨2, ![M, B]⟩, x₂⟩] h (ix2 p k') = x₁ (ix2 p k) :=
  concatenate_pair_apply_left (1 : Fin 2) x₁ x₂ h (ix2 p k') rfl (ix2 p k) (fun b => by
    match b with
    | ⟨0, _⟩ => rfl
    | ⟨1, _⟩ => exact hk.symm)

/-- Right of the seam it reads the second, the first one's width less. -/
theorem concat_cols_right {M A B T : ℕ} (x₁ : (⟨2, ![M, A]⟩ : Shape).Idx → α) (x₂ : (⟨2, ![M, B]⟩ : Shape).Idx → α)
    (h : Shape.Concatenates [(⟨2, ![M, A]⟩ : Shape), ⟨2, ![M, B]⟩] ⟨2, ![M, T]⟩ (1 : Fin 2))
    (p : Fin M) (k : Fin B) (k' : Fin T) (hk : k'.val = A + k.val) :
    concatenate ⟨2, ![M, T]⟩ (1 : Fin 2) [⟨⟨2, ![M, A]⟩, x₁⟩, ⟨⟨2, ![M, B]⟩, x₂⟩] h (ix2 p k') = x₂ (ix2 p k) :=
  concatenate_pair_apply_right (1 : Fin 2) x₁ x₂ h (ix2 p k') rfl rfl (ix2 p k) (fun b hb => by
    match b with
    | ⟨0, _⟩ => rfl
    | ⟨1, _⟩ => exact absurd rfl hb) (by
    show k.val + A = k'.val
    omega)

/-- Two vectors laid end to end: before the seam the result reads the first. -/
theorem concat_vec_left {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin A) (k' : Fin T) (hk : k'.val = k.val) :
    concatenate ⟨1, ![T]⟩ (0 : Fin 1) [⟨⟨1, ![A]⟩, x₁⟩, ⟨⟨1, ![B]⟩, x₂⟩] h (ix1 k') = x₁ (ix1 k) :=
  concatenate_pair_apply_left (0 : Fin 1) x₁ x₂ h (ix1 k') rfl (ix1 k) (fun b => by
    match b with
    | ⟨0, _⟩ => exact hk.symm)

/-- After the seam it reads the second, the first one's length less. -/
theorem concat_vec_right {A B T : ℕ} (x₁ : (⟨1, ![A]⟩ : Shape).Idx → α) (x₂ : (⟨1, ![B]⟩ : Shape).Idx → α)
    (h : Shape.Concatenates [(⟨1, ![A]⟩ : Shape), ⟨1, ![B]⟩] ⟨1, ![T]⟩ (0 : Fin 1))
    (k : Fin B) (k' : Fin T) (hk : k'.val = A + k.val) :
    concatenate ⟨1, ![T]⟩ (0 : Fin 1) [⟨⟨1, ![A]⟩, x₁⟩, ⟨⟨1, ![B]⟩, x₂⟩] h (ix1 k') = x₂ (ix1 k) :=
  concatenate_pair_apply_right (0 : Fin 1) x₁ x₂ h (ix1 k') rfl rfl (ix1 k) (fun b hb => by
    match b with
    | ⟨0, _⟩ => exact absurd rfl hb) (by
    show k.val + A = k'.val
    omega)

/-! ## Small casts and cuts -/

/-- A one-column array cast to a vector reads, at p, the column at p. -/
theorem shapeCast_colvec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A vector cut from o reads, at j, the source at o + j. -/
theorem slice_vec_apply {n m : ℕ} (o : ℕ) (x : (⟨1, ![n]⟩ : Shape).Idx → α)
    (h : (⟨1, ![n]⟩ : Shape).Slices ![o] ⟨1, ![m]⟩) (j : Fin m) (k : Fin n) (hk : k.val = o + j.val) :
    extractStridedSlice ⟨1, ![m]⟩ ![o] x h (ix1 j) = x (ix1 k) :=
  extractStridedSlice_apply _ _ _ _ _ (fun ax => by
    match ax with
    | ⟨0, _⟩ => exact hk)

end Cert.RowsLib

end
-- ==== Proof.HostTerms.lean ====
/-
  The terms both programs share, named once, and the whole computation as three functions of the argument arrays.

  The sum over a node's in-neighbours of the rows of an array x — rows of x gathered at the edges' source nodes,
  then added up at the edges' target nodes — is one function `agg` of the edge list and of x; neither program is
  ever asked what it computes, only that both apply it to equal arrays. The in-degree of every node, as a column,
  is `cnt2d`. With these, the first layer's output, the second layer's, and the score of a label pair are
  `XK1`, `XK2` and `outK`.
-/
import proofs.«139499_j8246337208621_2_alg».proof.Proof.Gen.ReferenceIdeal.Read
import proofs.«139499_j8246337208621_2_alg».proof.Proof.Spec
import proofs.«139499_j8246337208621_2_alg».proof.Proof.LibRows

set_option maxRecDepth 16384

noncomputable section

namespace Cert.Sage.Terms

open Idealize.ShloMosaic Idealize.ShloMosaic.ValueIdx Cert.LayoutLib Cert.DenseLib Cert.RowsLib Cert.Sage
open Cert.ReferenceIdeal Cert.ReferenceIdeal.Read

/-- The neighbour sums of the rows of x: rows gathered at the source of every edge (a negative index counted from
    the end), added up at the edge's target. -/
def agg (a0 : (⟨S2x600000, .i32⟩ : BufTy).Contents (Elt Ideal)) (x : (⟨S100000x128, .f32⟩ : BufTy).Contents (Elt Ideal)) : (⟨S100000x128, .f32⟩ : BufTy).Contents (Elt Ideal) :=
  Host.scatterAdd (F := Ideal) (φ := .f32) scatter_S100000x128_S600000x1_S600000x128_1_0_0_1 (val_main_v37 (F := Ideal)) (val_main_v38 (F := Ideal) a0)
    (Host.gather gather_S100000x128_S600000x1_S600000x128_1_0_n_n_0_1_1128 x (val_main_v35 (F := Ideal) a0))

/-- The reference's first neighbour sums are `agg` of the features. -/
theorem v13_eq (a0 : (⟨S2x600000, .i32⟩ : BufTy).Contents (Elt Ideal)) (a2 : (⟨S100000x128, .f32⟩ : BufTy).Contents (Elt Ideal)) : val_main_v13 (F := Ideal) a0 a2 = agg a0 a2 := rfl

/-- Its second neighbour sums are `agg` of the first layer's output. -/
theorem v39_eq (a0 : (⟨S2x600000, .i32⟩ : BufTy).Contents (Elt Ideal)) (a2 : (⟨S100000x128, .f32⟩ : BufTy).Contents (Elt Ideal)) (a3 : (⟨S128x128, .f32⟩ : BufTy).Contents (Elt Ideal)) (a4 : (⟨S128, .f32⟩ : BufTy).Contents (Elt Ideal)) (a5 : (⟨S128x128, .f32⟩ : BufTy).Contents (Elt Ideal)) :
    val_main_v39 (F := Ideal) a0 a2 a3 a4 a5 = agg a0 (val_main_v29 (F := Ideal) a0 a2 a3 a4 a5) := rfl

/-- The in-degrees as a one-column array. -/
def cnt2d (hc : S100000.ShapeCasts S100000x1) (a0 : (⟨S2x600000, .i32⟩ : BufTy).Contents (Elt Ideal)) : S100000x1.Idx → EReal :=
  shapeCast S100000x1 (val_main_v17 (F := Ideal) a0) hc

/-- The first layer's output: the layer of the features, cut at zero. -/
def XK1 (hc : S100000.ShapeCasts S100000x1) (a0 : (⟨S2x600000, .i32⟩ : BufTy).Contents (Elt Ideal)) (a2 : (⟨S100000x128, .f32⟩ : BufTy).Contents (Elt Ideal)) (a3 : (⟨S128x128, .f32⟩ : BufTy).Contents (Elt Ideal)) (a4 : (⟨S128, .f32⟩ : BufTy).Contents (Elt Ideal)) (a5 : (⟨S128x128, .f32⟩ : BufTy).Contents (Elt Ideal)) :
    S100000x128.Idx → EReal :=
  relu (layer (agg a0 a2) (cnt2d hc a0) a2 a3 a5 (fun q => a4 (ix1 q)))

/-- The second layer's output: the layer of the first layer's output, not cut. -/
def XK2 (hc : S100000.ShapeCasts S100000x1) (a0 : (⟨S2x600000, .i32⟩ : BufTy).Contents (Elt Ideal)) (a2 : (⟨S100000x128, .f32⟩ : BufTy).Contents (Elt Ideal)) (a3 : (⟨S128x128, .f32⟩ : BufTy).Contents (Elt Ideal)) (a4 : (⟨S128, .f32⟩ : BufTy).Contents (Elt Ideal)) (a5 a6 : (⟨S128x128, .f32⟩ : BufTy).Contents (Elt Ideal)) (a7 : (⟨S128, .f32⟩ : BufTy).Contents (Elt Ideal))
    (a8 : (⟨S128x128, .f32⟩ : BufTy).Contents (Elt Ideal)) : S100000x128.Idx → EReal :=
  layer (agg a0 (XK1 hc a0 a2 a3 a4 a5)) (cnt2d hc a0) (XK1 hc a0 a2 a3 a4 a5) a6 a8 (fun q => a7 (ix1 q))

/-- The score of label pair l: the pair's two nodes are read off the label list (a negative index counted from the
    end, then clamped into the node range). -/
def outK (hc : S100000.ShapeCasts S100000x1) (a0 : (⟨S2x600000, .i32⟩ : BufTy).Contents (Elt Ideal)) (a1 : (⟨S2x200000, .i32⟩ : BufTy).Contents (Elt Ideal)) (a2 : (⟨S100000x128, .f32⟩ : BufTy).Contents (Elt Ideal)) (a3 : (⟨S128x128, .f32⟩ : BufTy).Contents (Elt Ideal)) (a4 : (⟨S128, .f32⟩ : BufTy).Contents (Elt Ideal)) (a5 a6 : (⟨S128x128, .f32⟩ : BufTy).Contents (Elt Ideal))
    (a7 : (⟨S128, .f32⟩ : BufTy).Contents (Elt Ideal)) (a8 : (⟨S128x128, .f32⟩ : BufTy).Contents (Elt Ideal)) (a9 : (⟨S256x1, .f32⟩ : BufTy).Contents (Elt Ideal)) (a10 : (⟨S1, .f32⟩ : BufTy).Contents (Elt Ideal)) (l : Fin 200000) : EReal :=
  pairScore (XK2 hc a0 a2 a3 a4 a5 a6 a7 a8) a9 (a10 (ix1 (0 : Fin 1))) upHalf loHalf
    (rowOf 100000 (by decide) (val_main_v64 (F := Ideal) a1 (ix2 l (0 : Fin 1))))
    (rowOf 100000 (by decide) (val_main_v71 (F := Ideal) a1 (ix2 l (0 : Fin 1))))

end Cert.Sage.Terms

end
-- ==== Proof.Stretch0.lean ====
/-
  The arrays the first tiled region is entered with, and its output array.

  Before the first region the program has cut the edge list into its source row and its target row, counted every
  node's in-degree, summed every node's in-neighbour feature rows, and recast the first bias as a one-row array.
  Read back from the launch memory these are the shared terms: the in-degree column, the neighbour sums of the
  features, the bias row. The arguments themselves are untouched. So the first region's output array — the layer
  of what it finds, cut at zero, by the region's own theorem — is the first layer's output of the argument arrays.
-/
import proofs.«139499_j8246337208621_2_alg».proof.Proof.Gen.KernelIdeal.Frame
import proofs.«139499_j8246337208621_2_alg».proof.Proof.Region0
import proofs.«139499_j8246337208621_2_alg».proof.Proof.HostTerms
import Idealize.ShloMosaic.Lib.StableHlo.Run
import Idealize.ShloMosaic.Lib.ValueLayout

set_option maxRecDepth 16384

noncomputable section

namespace Cert.Sage.Stretch0

open Idealize.ShloMosaic Idealize.ShloMosaic.TcCoe Idealize.SL.Sem Idealize.ShloMosaic.ValueIdx Idealize.ShloMosaic.StableHlo
open Cert.LayoutLib Cert.DenseLib Cert.RowsLib Cert.Sage Cert.Sage.Terms
open Cert.KernelIdeal Cert.KernelIdeal.Gen

variable (hc : S100000.ShapeCasts S100000x1) (hb : S128.ShapeCasts S1x128)
variable (m : (ℓ : Loc nD τ sig) → Buf (Elt Ideal) ℓ) (ρ : Dev nD → PrngReg) (c : Dev nD)

/-- The neighbour sums of the features. -/
theorem s0_v18 : (V1 (F := Ideal) m ρ c main_v18 : S100000x128.Idx → EReal) = agg (m ((c : Thread nD τ).loc main_arg0)) (m ((c : Thread nD τ).loc main_arg2)) := by
  show StableHlo.after hostOps0 (W0 m ρ c) (Proc.devRef .tc main_v18) = _
  after_results_simp <;> rfl

/-- The in-degree column. -/
theorem s0_v8 : (V1 (F := Ideal) m ρ c main_v8 : S100000x1.Idx → EReal) = cnt2d hc (m ((c : Thread nD τ).loc main_arg0)) := by
  show StableHlo.after hostOps0 (W0 m ρ c) (Proc.devRef .tc main_v8) = _
  after_results_simp <;> rfl

/-- The first bias as a one-row array. -/
theorem s0_v19 : (V1 (F := Ideal) m ρ c main_v19 : S1x128.Idx → EReal) = shapeCast S1x128 (m ((c : Thread nD τ).loc main_arg4)) hb := by
  show StableHlo.after hostOps0 (W0 m ρ c) (Proc.devRef .tc main_v19) = _
  after_results_simp <;> rfl

/-- The edges' source row. -/
theorem s0_v1 : (V1 (F := Ideal) m ρ c main_v1 : S600000.Idx → BitVec 32) = Cert.ReferenceIdeal.Read.val_main_v1 (F := Ideal) (m ((c : Thread nD τ).loc main_arg0)) := by
  show StableHlo.after hostOps0 (W0 m ρ c) (Proc.devRef .tc main_v1) = _
  after_results_simp <;> rfl

/-- The edges' target row. -/
theorem s0_v3 : (V1 (F := Ideal) m ρ c main_v3 : S600000.Idx → BitVec 32) = Cert.ReferenceIdeal.Read.val_main_v3 (F := Ideal) (m ((c : Thread nD τ).loc main_arg0)) := by
  show StableHlo.after hostOps0 (W0 m ρ c) (Proc.devRef .tc main_v3) = _
  after_results_simp <;> rfl

/-- Argument 1 is as launched. -/
theorem s0_arg1 : V1 (F := Ideal) m ρ c main_arg1 = (m ((c : Thread nD τ).loc main_arg1)) := by
  show StableHlo.after hostOps0 (W0 m ρ c) (Proc.devRef .tc main_arg1) = _
  after_results_simp <;> rfl

/-- Argument 2 is as launched. -/
theorem s0_arg2 : V1 (F := Ideal) m ρ c main_arg2 = (m ((c : Thread nD τ).loc main_arg2)) := by
  show StableHlo.after hostOps0 (W0 m ρ c) (Proc.devRef .tc main_arg2) = _
  after_results_simp <;> rfl

/-- Argument 3 is as launched. -/
theorem s0_arg3 : V1 (F := Ideal) m ρ c main_arg3 = (m ((c : Thread nD τ).loc main_arg3)) := by
  show StableHlo.after hostOps0 (W0 m ρ c) (Proc.devRef .tc main_arg3) = _
  after_results_simp <;> rfl

/-- Argument 5 is as launched. -/
theorem s0_arg5 : V1 (F := Ideal) m ρ c main_arg5 = (m ((c : Thread nD τ).loc main_arg5)) := by
  show StableHlo.after hostOps0 (W0 m ρ c) (Proc.devRef .tc main_arg5) = _
  after_results_simp <;> rfl

/-- Argument 6 is as launched. -/
theorem s0_arg6 : V1 (F := Ideal) m ρ c main_arg6 = (m ((c : Thread nD τ).loc main_arg6)) := by
  show StableHlo.after hostOps0 (W0 m ρ c) (Proc.devRef .tc main_arg6) = _
  after_results_simp <;> rfl

/-- Argument 7 is as launched. -/
theorem s0_arg7 : V1 (F := Ideal) m ρ c main_arg7 = (m ((c : Thread nD τ).loc main_arg7)) := by
  show StableHlo.after hostOps0 (W0 m ρ c) (Proc.devRef .tc main_arg7) = _
  after_results_simp <;> rfl

/-- Argument 8 is as launched. -/
theorem s0_arg8 : V1 (F := Ideal) m ρ c main_arg8 = (m ((c : Thread nD τ).loc main_arg8)) := by
  show StableHlo.after hostOps0 (W0 m ρ c) (Proc.devRef .tc main_arg8) = _
  after_results_simp <;> rfl

/-- Argument 9 is as launched. -/
theorem s0_arg9 : V1 (F := Ideal) m ρ c main_arg9 = (m ((c : Thread nD τ).loc main_arg9)) := by
  show StableHlo.after hostOps0 (W0 m ρ c) (Proc.devRef .tc main_arg9) = _
  after_results_simp <;> rfl

/-- Argument 10 is as launched. -/
theorem s0_arg10 : V1 (F := Ideal) m ρ c main_arg10 = (m ((c : Thread nD τ).loc main_arg10)) := by
  show StableHlo.after hostOps0 (W0 m ρ c) (Proc.devRef .tc main_arg10) = _
  after_results_simp <;> rfl

include hb in
/-- THE FIRST REGION'S OUTPUT ARRAY is the first layer's output of the argument arrays. -/
theorem region0_out : (dat0 (F := Ideal) (V1 m ρ) c).arrAt 6 cfg0.N
    = XK1 hc (m ((c : Thread nD τ).loc main_arg0)) (m ((c : Thread nD τ).loc main_arg2)) (m ((c : Thread nD τ).loc main_arg3)) (m ((c : Thread nD τ).loc main_arg4)) (m ((c : Thread nD τ).loc main_arg5)) := by
  rw [Region0.final (V1 m ρ) c]
  unfold Region0.X1 XK1
  rw [s0_v18 m ρ c, s0_v8 hc m ρ c, s0_arg2 m ρ c, s0_arg3 m ρ c, s0_arg5 m ρ c, s0_v19 hb m ρ c]
  simp only [shapeCast_a_1a_apply]

end Cert.Sage.Stretch0

end
-- ==== Proof.Region1.lean ====
/-
  The second tiled region, for ANY contents V the region is entered with: its output array after the region is the second
  layer (no cut) of the arrays V holds, multiplied by the two-column weight matrix — all 100000 rows at once, two scores
  per node. Each grid point computes and writes back its band of 5000 rows; a row of a product depends on that row of the
  left operand only, and a band of the layer is the layer of the bands; the bands tile the rows.
-/
import proofs.«139499_j8246337208621_2_alg».proof.Proof.Gen.KernelIdeal.Frame
import proofs.«139499_j8246337208621_2_alg».proof.Proof.Body
import Idealize.ShloMosaic.Lib.Pipeline.Value

set_option maxRecDepth 16384

noncomputable section

namespace Cert.Sage.Region1

open Idealize.ShloMosaic Idealize.ShloMosaic.TcCoe Idealize.SL.Sem Idealize.ShloMosaic.ValueIdx
open Idealize.ShloMosaic.Pipeline (Dat)
open Cert.LayoutLib Cert.DenseLib Cert.Sage Cert.Sage.Body
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The per-node score pairs as one function of the arrays the region finds. -/
def Y2 (c : Dev nD) : S100000x2.Idx → EReal :=
  mm (layer (V c main_v30 : S100000x128.Idx → EReal) (V c main_v8 : S100000x1.Idx → EReal) (V c main_v20 : S100000x128.Idx → EReal)
    (V c main_arg6 : S128x128.Idx → EReal) (V c main_arg8 : S128x128.Idx → EReal) (fun q => (V c main_v34 : S1x128.Idx → EReal) (ix2 (0 : Fin 1) q)))
    (V c main_v33 : S128x2.Idx → EReal)

/-- The printed index maps, decided once over the grid's twenty points: a row-banded window sits at block (t, 0) at
    point t, a whole window at block (0, 0). -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = t.val
    ∧ win1_7.index t (1 : Fin 2) = 0 :=
  (by decide +kernel : ∀ t : Fin grid1.N, _)

/-- Window 0's block at point t is rows 5000·t … 5000·t + 4999 of its array. -/
theorem blk_0 (c : Dev nD) (t : Fin cfg1.N) (r : Fin 5000) (j : Fin 128) (p : Fin 100000) (hp : p.val = 5000 * t.val + r.val) :
    (iblk1 V c 0 t : S5000x128.Idx → EReal) (ix2 r j) = (V c main_v30 : S100000x128.Idx → EReal) (ix2 p j) := by
  obtain ⟨e0_0, e0_1, e1_0, e1_1, e2_0, e2_1, e3_0, e3_1, e4_0, e4_1, e5_0, e5_1, e6_0, e6_1, e7_0, e7_1⟩ := idx_facts t
  unfold iblk1
  rw [View.read_apply]
  show (V c main_v30 : S100000x128.Idx → EReal) _ = _
  congr 1
  funext a; apply Fin.ext
  match a with
  | ⟨0, _⟩ => show win1_0.index t (0 : Fin 2) * 5000 + 1 * r.val = p.val; rw [e0_0, hp]; omega
  | ⟨1, _⟩ => show win1_0.index t (1 : Fin 2) * 128 + 1 * j.val = j.val; rw [e0_1]; omega

/-- Window 1's block at point t is rows 5000·t … 5000·t + 4999 of its array. -/
theorem blk_1 (c : Dev nD) (t : Fin cfg1.N) (r : Fin 5000) (j : Fin 1) (p : Fin 100000) (hp : p.val = 5000 * t.val + r.val) :
    (iblk1 V c 1 t : S5000x1.Idx → EReal) (ix2 r j) = (V c main_v8 : S100000x1.Idx → EReal) (ix2 p j) := by
  obtain ⟨e0_0, e0_1, e1_0, e1_1, e2_0, e2_1, e3_0, e3_1, e4_0, e4_1, e5_0, e5_1, e6_0, e6_1, e7_0, e7_1⟩ := idx_facts t
  unfold iblk1
  rw [View.read_apply]
  show (V c main_v8 : S100000x1.Idx → EReal) _ = _
  congr 1
  funext a; apply Fin.ext
  match a with
  | ⟨0, _⟩ => show win1_1.index t (0 : Fin 2) * 5000 + 1 * r.val = p.val; rw [e1_0, hp]; omega
  | ⟨1, _⟩ => show win1_1.index t (1 : Fin 2) * 1 + 1 * j.val = j.val; rw [e1_1]; omega

/-- Window 2's block at point t is rows 5000·t … 5000·t + 4999 of its array. -/
theorem blk_2 (c : Dev nD) (t : Fin cfg1.N) (r : Fin 5000) (j : Fin 128) (p : Fin 100000) (hp : p.val = 5000 * t.val + r.val) :
    (iblk1 V c 2 t : S5000x128.Idx → EReal) (ix2 r j) = (V c main_v20 : S100000x128.Idx → EReal) (ix2 p j) := by
  obtain ⟨e0_0, e0_1, e1_0, e1_1, e2_0, e2_1, e3_0, e3_1, e4_0, e4_1, e5_0, e5_1, e6_0, e6_1, e7_0, e7_1⟩ := idx_facts t
  unfold iblk1
  rw [View.read_apply]
  show (V c main_v20 : S100000x128.Idx → EReal) _ = _
  congr 1
  funext a; apply Fin.ext
  match a with
  | ⟨0, _⟩ => show win1_2.index t (0 : Fin 2) * 5000 + 1 * r.val = p.val; rw [e2_0, hp]; omega
  | ⟨1, _⟩ => show win1_2.index t (1 : Fin 2) * 128 + 1 * j.val = j.val; rw [e2_1]; omega

/-- Window 3's one block is its whole array, at every point. -/
theorem blk_3 (c : Dev nD) (t : Fin cfg1.N) :
    (iblk1 V c 3 t : S128x128.Idx → EReal) = (V c main_arg6 : S128x128.Idx → EReal) := by
  obtain ⟨e0_0, e0_1, e1_0, e1_1, e2_0, e2_1, e3_0, e3_1, e4_0, e4_1, e5_0, e5_1, e6_0, e6_1, e7_0, e7_1⟩ := idx_facts t
  unfold iblk1
  funext y
  rw [View.read_apply]
  show (V c main_arg6 : S128x128.Idx → EReal) _ = _
  congr 1
  funext a; apply Fin.ext
  match a with
  | ⟨0, _⟩ => show win1_3.index t (0 : Fin 2) * 128 + 1 * (y 0).val = (y 0).val; rw [e3_0]; omega
  | ⟨1, _⟩ => show win1_3.index t (1 : Fin 2) * 128 + 1 * (y 1).val = (y 1).val; rw [e3_1]; omega

/-- Window 4's one block is its whole array, at every point. -/
theorem blk_4 (c : Dev nD) (t : Fin cfg1.N) :
    (iblk1 V c 4 t : S128x128.Idx → EReal) = (V c main_arg8 : S128x128.Idx → EReal) := by
  obtain ⟨e0_0, e0_1, e1_0, e1_1, e2_0, e2_1, e3_0, e3_1, e4_0, e4_1, e5_0, e5_1, e6_0, e6_1, e7_0, e7_1⟩ := idx_facts t
  unfold iblk1
  funext y
  rw [View.read_apply]
  show (V c main_arg8 : S128x128.Idx → EReal) _ = _
  congr 1
  funext a; apply Fin.ext
  match a with
  | ⟨0, _⟩ => show win1_4.index t (0 : Fin 2) * 128 + 1 * (y 0).val = (y 0).val; rw [e4_0]; omega
  | ⟨1, _⟩ => show win1_4.index t (1 : Fin 2) * 128 + 1 * (y 1).val = (y 1).val; rw [e4_1]; omega

/-- Window 5's one block is its whole array, at every point. -/
theorem blk_5 (c : Dev nD) (t : Fin cfg1.N) :
    (iblk1 V c 5 t : S1x128.Idx → EReal) = (V c main_v34 : S1x128.Idx → EReal) := by
  obtain ⟨e0_0, e0_1, e1_0, e1_1, e2_0, e2_1, e3_0, e3_1, e4_0, e4_1, e5_0, e5_1, e6_0, e6_1, e7_0, e7_1⟩ := idx_facts t
  unfold iblk1
  funext y
  rw [View.read_apply]
  show (V c main_v34 : S1x128.Idx → EReal) _ = _
  congr 1
  funext a; apply Fin.ext
  match a with
  | ⟨0, _⟩ => show win1_5.index t (0 : Fin 2) * 1 + 1 * (y 0).val = (y 0).val; rw [e5_0]; omega
  | ⟨1, _⟩ => show win1_5.index t (1 : Fin 2) * 128 + 1 * (y 1).val = (y 1).val; rw [e5_1]; omega

/-- Window 6's one block is its whole array, at every point. -/
theorem blk_6 (c : Dev nD) (t : Fin cfg1.N) :
    (iblk1 V c 6 t : S128x2.Idx → EReal) = (V c main_v33 : S128x2.Idx → EReal) := by
  obtain ⟨e0_0, e0_1, e1_0, e1_1, e2_0, e2_1, e3_0, e3_1, e4_0, e4_1, e5_0, e5_1, e6_0, e6_1, e7_0, e7_1⟩ := idx_facts t
  unfold iblk1
  funext y
  rw [View.read_apply]
  show (V c main_v33 : S128x2.Idx → EReal) _ = _
  congr 1
  funext a; apply Fin.ext
  match a with
  | ⟨0, _⟩ => show win1_6.index t (0 : Fin 2) * 128 + 1 * (y 0).val = (y 0).val; rw [e6_0]; omega
  | ⟨1, _⟩ => show win1_6.index t (1 : Fin 2) * 2 + 1 * (y 1).val = (y 1).val; rw [e6_1]; omega

/-- Where the output block's entry (r, q) at point t sits in the output array: row 5000·t + r, column q. -/
theorem emb_out (t : Fin cfg1.N) (r : Fin 5000) (q : Fin 2) (p : Fin 100000) (hp : p.val = 5000 * t.val + r.val) :
    ((cfg1.win 7).blk t).view.emb (ix2 r q) = (ix2 p q : S100000x2.Idx) := by
  obtain ⟨e0_0, e0_1, e1_0, e1_1, e2_0, e2_1, e3_0, e3_1, e4_0, e4_1, e5_0, e5_1, e6_0, e6_1, e7_0, e7_1⟩ := idx_facts t
  funext a; apply Fin.ext
  match a with
  | ⟨0, _⟩ => show win1_7.index t (0 : Fin 2) * 5000 + 1 * r.val = p.val; rw [e7_0, hp]; omega
  | ⟨1, _⟩ => show win1_7.index t (1 : Fin 2) * 2 + 1 * q.val = q.val; rw [e7_1]; omega

/-- WHAT POINT t WRITES BACK is block t of the whole-array function. -/
theorem flushed_eq (c : Dev nD) (t : Fin cfg1.N) :
    (dat1 (F := Ideal) V c).flushed 7 t = ((cfg1.win 7).blk t).view.read (Elt Ideal) (Y2 V c) := by
  show (cfg1.win 7).cut (grid1.coords t) ((dat1 (F := Ideal) V c).after 7 t) = _
  rw [after1_7]
  unfold out1_7
  rw [View.canon_unit_zero hz]
  simp only [View.ld_unit_zero (S := S5000x1) hz, View.ld_unit_zero (S := S5000x128) hz, View.ld_unit_zero (S := S128x128) hz, View.ld_unit_zero (S := S1x128) hz, View.ld_unit_zero (S := S128x2) hz]
  rw [pay1_eq]
  rw [blk_3 V c t, blk_4 V c t, blk_5 V c t, blk_6 V c t]
  funext y
  obtain ⟨r, q, rfl⟩ : ∃ (r : Fin 5000) (q : Fin 2), y = ix2 r q := ⟨y 0, y 1, eq_ix2 y⟩
  have hN : cfg1.N = 20 := N_1
  have hlt : 5000 * t.val + r.val < 100000 := by have := t.isLt; have := r.isLt; omega
  rw [View.read_apply]
  refine Eq.trans ?_ (congrArg (Y2 V c) (emb_out t r q ⟨5000 * t.val + r.val, hlt⟩ rfl).symm)
  exact mm_row (M := 5000) (M' := 100000) (K := 128) (N := 2) _ _ (V c main_v33 : S128x2.Idx → EReal) r ⟨5000 * t.val + r.val, hlt⟩
    (fun k => layer_band (M := 100000) (B := 5000) (K := 128) (N := 128) (5000 * t.val)
      (V c main_v30 : S100000x128.Idx → EReal) (V c main_v8 : S100000x1.Idx → EReal) (V c main_v20 : S100000x128.Idx → EReal)
      (iblk1 V c 0 t : S5000x128.Idx → EReal) (iblk1 V c 1 t : S5000x1.Idx → EReal) (iblk1 V c 2 t : S5000x128.Idx → EReal)
      (V c main_arg6 : S128x128.Idx → EReal) (V c main_arg8 : S128x128.Idx → EReal) (fun q => (V c main_v34 : S1x128.Idx → EReal) (ix2 (0 : Fin 1) q))
      r ⟨5000 * t.val + r.val, hlt⟩ rfl
      (fun p hp j => blk_0 V c t r j p hp) (fun p hp => blk_1 V c t r (0 : Fin 1) p hp) (fun p hp j => blk_2 V c t r j p hp) k) q

/-- An index of the output array is in point t's block iff each coordinate is in the block's range. -/
theorem mem_blk (t : Fin cfg1.N) (i : S100000x2.Idx) :
    i ∈ ((cfg1.win 7).blk t).view.set ↔ ∀ a : Fin 2, win1_7.index t a * S5000x2.size a ≤ (i a).val ∧ (i a).val < win1_7.index t a * S5000x2.size a + S5000x2.size a := by
  show i ∈ ((View.whole main_v35).slice (win1_7.rect t)).set ↔ _
  rw [View.set_slice_whole, Rect.mem_set_unit]
  exact Iff.rfl

/-- Every row lies in the band of the point numbered row / 5000, and every point writes its band back. -/
theorem cover (i : S100000x2.Idx) :
    ∃ t : Fin cfg1.N, (cfg1.win 7).flush t = true ∧ i ∈ ((cfg1.win 7).blk t).view.set := by
  have hN : cfg1.N = 20 := N_1
  have hi0 : (i 0).val < 100000 := (i 0).isLt
  have hi1 : (i 1).val < 2 := (i 1).isLt
  have hb : (i 0).val / 5000 < cfg1.N := by rw [hN]; omega
  obtain ⟨e0_0, e0_1, e1_0, e1_1, e2_0, e2_1, e3_0, e3_1, e4_0, e4_1, e5_0, e5_1, e6_0, e6_1, e7_0, e7_1⟩ := idx_facts ⟨(i 0).val / 5000, hb⟩
  refine ⟨⟨(i 0).val / 5000, hb⟩, flush1_7 _, ?_⟩
  rw [mem_blk]
  intro a
  match a with
  | ⟨0, _⟩ =>
    show win1_7.index ⟨(i 0).val / 5000, hb⟩ (0 : Fin 2) * 5000 ≤ (i 0).val ∧ (i 0).val < win1_7.index ⟨(i 0).val / 5000, hb⟩ (0 : Fin 2) * 5000 + 5000
    rw [e7_0]
    show (i 0).val / 5000 * 5000 ≤ (i 0).val ∧ (i 0).val < (i 0).val / 5000 * 5000 + 5000
    omega
  | ⟨1, _⟩ =>
    show win1_7.index ⟨(i 0).val / 5000, hb⟩ (1 : Fin 2) * 2 ≤ (i 1).val ∧ (i 1).val < win1_7.index ⟨(i 0).val / 5000, hb⟩ (1 : Fin 2) * 2 + 2
    rw [e7_1]
    omega

/-- THE OUTPUT ARRAY after the region, for any contents the region is entered with: the whole-array function. -/
theorem final (c : Dev nD) : (dat1 (F := Ideal) V c).arrAt 7 cfg1.N = Y2 V c :=
  (dat1 (F := Ideal) V c).arrAt_eq_of_cover 7 (Y2 V c) (fun t _ => flushed_eq V c t) (cover)

end Cert.Sage.Region1

end
-- ==== Proof.Stretch1.lean ====
/-
  The arrays the second tiled region is entered with, and its output array.

  Between the regions the program sums every node's in-neighbour rows of the first layer's output, lays the upper and
  the lower half of the 256-entry weight column side by side as a two-column matrix, and recasts the second bias as a
  one-row array. The in-degree column and the first layer's output reach the second region as the first left them:
  the first as an input the region only read, the second as the array it wrote. So the second region's output array —
  by the region's own theorem — is the second layer's output of the argument arrays times the two-column matrix.
-/
import proofs.«139499_j8246337208621_2_alg».proof.Proof.Stretch0
import proofs.«139499_j8246337208621_2_alg».proof.Proof.Region1

set_option maxRecDepth 16384

noncomputable section

namespace Cert.Sage.Stretch1

open Idealize.ShloMosaic Idealize.ShloMosaic.TcCoe Idealize.SL.Sem Idealize.ShloMosaic.ValueIdx Idealize.ShloMosaic.StableHlo
open Cert.LayoutLib Cert.DenseLib Cert.RowsLib Cert.Sage Cert.Sage.Terms
open Cert.KernelIdeal Cert.KernelIdeal.Gen

variable (hc : S100000.ShapeCasts S100000x1) (hb : S128.ShapeCasts S1x128)
variable (m : (ℓ : Loc nD τ sig) → Buf (Elt Ideal) ℓ) (ρ : Dev nD → PrngReg) (c : Dev nD)

open Cert.Sage.Stretch0

/-- The two-column weight matrix: the upper half of the 256-entry column beside its lower half. -/
def wlin2 (a9 : FVec Ideal S256x1 .f32) : FVec Ideal S128x2 .f32 :=
  concatenate S128x2 1 [⟨S128x1, extractStridedSlice S128x1 ![0, 0] a9 slices_S256x1_S128x1_0_0⟩,
    ⟨S128x1, extractStridedSlice S128x1 ![128, 0] a9 slices_S256x1_S128x1_128_0⟩] concatenates_S128x1_S128x1_S128x2_d1

/-- Its first column is the upper half. -/
theorem wlin2_up (a9 : FVec Ideal S256x1 .f32) (k : Fin 128) :
    wlin2 a9 (ix2 k (0 : Fin 2)) = a9 (ix2 (upHalf k) (0 : Fin 1)) :=
  (concat_cols_left _ _ _ k (0 : Fin 1) (0 : Fin 2) rfl).trans
    (slice2_axis0_apply 0 a9 _ k (0 : Fin 1) (upHalf k) (by show k.val = 0 + k.val; omega))

/-- Its second column is the lower half. -/
theorem wlin2_lo (a9 : FVec Ideal S256x1 .f32) (k : Fin 128) :
    wlin2 a9 (ix2 k (1 : Fin 2)) = a9 (ix2 (loHalf k) (0 : Fin 1)) :=
  (concat_cols_right _ _ _ k (0 : Fin 1) (1 : Fin 2) rfl).trans
    (slice2_axis0_apply 128 a9 _ k (0 : Fin 1) (loHalf k) rfl)

/-! ## Across the first region -/

/-- The edges' source row is not an array of the first region: it is as the first stretch left it. -/
theorem w2_v1 : W2 (F := Ideal) m ρ c (Proc.devRef .tc main_v1) = Cert.ReferenceIdeal.Read.val_main_v1 (F := Ideal) (m ((c : Thread nD τ).loc main_arg0)) :=
  (W2_of_ne m ρ c main_v1 (by decide)).trans (s0_v1 m ρ c)

/-- The edges' target row is not an array of the first region: it is as the first stretch left it. -/
theorem w2_v3 : W2 (F := Ideal) m ρ c (Proc.devRef .tc main_v3) = Cert.ReferenceIdeal.Read.val_main_v3 (F := Ideal) (m ((c : Thread nD τ).loc main_arg0)) :=
  (W2_of_ne m ρ c main_v3 (by decide)).trans (s0_v3 m ρ c)

theorem w2_arg1 : W2 (F := Ideal) m ρ c (Proc.devRef .tc main_arg1) = (m ((c : Thread nD τ).loc main_arg1)) :=
  (W2_of_ne m ρ c main_arg1 (by decide)).trans (s0_arg1 m ρ c)

theorem w2_arg6 : W2 (F := Ideal) m ρ c (Proc.devRef .tc main_arg6) = (m ((c : Thread nD τ).loc main_arg6)) :=
  (W2_of_ne m ρ c main_arg6 (by decide)).trans (s0_arg6 m ρ c)

theorem w2_arg7 : W2 (F := Ideal) m ρ c (Proc.devRef .tc main_arg7) = (m ((c : Thread nD τ).loc main_arg7)) :=
  (W2_of_ne m ρ c main_arg7 (by decide)).trans (s0_arg7 m ρ c)

theorem w2_arg8 : W2 (F := Ideal) m ρ c (Proc.devRef .tc main_arg8) = (m ((c : Thread nD τ).loc main_arg8)) :=
  (W2_of_ne m ρ c main_arg8 (by decide)).trans (s0_arg8 m ρ c)

theorem w2_arg9 : W2 (F := Ideal) m ρ c (Proc.devRef .tc main_arg9) = (m ((c : Thread nD τ).loc main_arg9)) :=
  (W2_of_ne m ρ c main_arg9 (by decide)).trans (s0_arg9 m ρ c)

theorem w2_arg10 : W2 (F := Ideal) m ρ c (Proc.devRef .tc main_arg10) = (m ((c : Thread nD τ).loc main_arg10)) :=
  (W2_of_ne m ρ c main_arg10 (by decide)).trans (s0_arg10 m ρ c)

/-- The in-degree column is an input of the first region: read, not written. -/
theorem w2_v8 : W2 (F := Ideal) m ρ c (Proc.devRef .tc main_v8) = cnt2d hc (m ((c : Thread nD τ).loc main_arg0)) :=
  ((W2_arr m ρ c 1).trans (((dat0 (V1 m ρ) c).arrAt_in 1 rfl _).trans (A_eq0 (V1 m ρ) c 1))).trans (s0_v8 hc m ρ c)

include hb in
/-- The first region's output array is the first layer's output. -/
theorem w2_v20 : W2 (F := Ideal) m ρ c (Proc.devRef .tc main_v20) = XK1 hc (m ((c : Thread nD τ).loc main_arg0)) (m ((c : Thread nD τ).loc main_arg2)) (m ((c : Thread nD τ).loc main_arg3)) (m ((c : Thread nD τ).loc main_arg4)) (m ((c : Thread nD τ).loc main_arg5)) :=
  (W2_arr m ρ c 6).trans (region0_out hc hb m ρ c)

/-! ## What the second region finds -/

include hb in
/-- The neighbour sums of the first layer's output. -/
theorem s1_v30 : (V3 (F := Ideal) m ρ c main_v30 : S100000x128.Idx → EReal)
    = agg (m ((c : Thread nD τ).loc main_arg0)) (XK1 hc (m ((c : Thread nD τ).loc main_arg0)) (m ((c : Thread nD τ).loc main_arg2)) (m ((c : Thread nD τ).loc main_arg3)) (m ((c : Thread nD τ).loc main_arg4)) (m ((c : Thread nD τ).loc main_arg5))) := by
  show StableHlo.after hostOps1 (W2 m ρ c) (Proc.devRef .tc main_v30) = _
  after_results_simp
  rw [w2_v20 hc hb m ρ c, w2_v1 m ρ c, w2_v3 m ρ c] <;> rfl

theorem s1_v8 : (V3 (F := Ideal) m ρ c main_v8 : S100000x1.Idx → EReal) = cnt2d hc (m ((c : Thread nD τ).loc main_arg0)) := by
  show StableHlo.after hostOps1 (W2 m ρ c) (Proc.devRef .tc main_v8) = _
  after_results_simp
  exact w2_v8 hc m ρ c

include hb in
theorem s1_v20 : (V3 (F := Ideal) m ρ c main_v20 : S100000x128.Idx → EReal)
    = XK1 hc (m ((c : Thread nD τ).loc main_arg0)) (m ((c : Thread nD τ).loc main_arg2)) (m ((c : Thread nD τ).loc main_arg3)) (m ((c : Thread nD τ).loc main_arg4)) (m ((c : Thread nD τ).loc main_arg5)) := by
  show StableHlo.after hostOps1 (W2 m ρ c) (Proc.devRef .tc main_v20) = _
  after_results_simp
  exact w2_v20 hc hb m ρ c

theorem s1_arg1 : V3 (F := Ideal) m ρ c main_arg1 = (m ((c : Thread nD τ).loc main_arg1)) := by
  show StableHlo.after hostOps1 (W2 m ρ c) (Proc.devRef .tc main_arg1) = _
  after_results_simp
  exact w2_arg1 m ρ c

theorem s1_arg6 : V3 (F := Ideal) m ρ c main_arg6 = (m ((c : Thread nD τ).loc main_arg6)) := by
  show StableHlo.after hostOps1 (W2 m ρ c) (Proc.devRef .tc main_arg6) = _
  after_results_simp
  exact w2_arg6 m ρ c

theorem s1_arg8 : V3 (F := Ideal) m ρ c main_arg8 = (m ((c : Thread nD τ).loc main_arg8)) := by
  show StableHlo.after hostOps1 (W2 m ρ c) (Proc.devRef .tc main_arg8) = _
  after_results_simp
  exact w2_arg8 m ρ c

theorem s1_arg10 : V3 (F := Ideal) m ρ c main_arg10 = (m ((c : Thread nD τ).loc main_arg10)) := by
  show StableHlo.after hostOps1 (W2 m ρ c) (Proc.devRef .tc main_arg10) = _
  after_results_simp
  exact w2_arg10 m ρ c

/-- The second bias as a one-row array. -/
theorem s1_v34 : (V3 (F := Ideal) m ρ c main_v34 : S1x128.Idx → EReal) = shapeCast S1x128 (m ((c : Thread nD τ).loc main_arg7)) hb := by
  show StableHlo.after hostOps1 (W2 m ρ c) (Proc.devRef .tc main_v34) = _
  after_results_simp
  rw [w2_arg7 m ρ c] <;> rfl

/-- The two-column weight matrix. -/
theorem s1_v33 : (V3 (F := Ideal) m ρ c main_v33 : S128x2.Idx → EReal) = wlin2 (m ((c : Thread nD τ).loc main_arg9)) := by
  show StableHlo.after hostOps1 (W2 m ρ c) (Proc.devRef .tc main_v33) = _
  after_results
  rw [w2_arg9 m ρ c] <;> rfl

include hb in
/-- THE SECOND REGION'S OUTPUT ARRAY: the second layer's output of the argument arrays times the two-column matrix. -/
theorem region1_out : (dat1 (F := Ideal) (V3 m ρ) c).arrAt 7 cfg1.N
    = mm (XK2 hc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (wlin2 (m ((c : Thread nD τ).loc main_arg9))) := by
  rw [Region1.final (V3 m ρ) c]
  unfold Region1.Y2 XK2
  rw [s1_v30 hc hb m ρ c, s1_v8 hc m ρ c, s1_v20 hc hb m ρ c, s1_arg6 m ρ c, s1_arg8 m ρ c, s1_v34 hb m ρ c, s1_v33 m ρ c]
  simp only [shapeCast_a_1a_apply]

end Cert.Sage.Stretch1

end
-- ==== Proof.LibGatherVec.lean ====
/-
  General lemma: a gather of single entries of a vector at a column of start indices, read at an entry. The
  entry a start index names is the index read as a signed integer and clamped into the vector. None mentions a program.
-/
import Idealize.ShloMosaic.Lib.ValueIdx
import Idealize.ShloMosaic.Lib.Pipeline.Value

noncomputable section

namespace Cert.GatherVecLib

open Idealize.ShloMosaic Idealize.ShloMosaic.ValueIdx

variable {α : Type}

/-- The dimension numbers of a gather of single entries: a vector of N entries, a column of R start indices, a
    result of R entries; the one axis is collapsed and named by the start index, and there is no offset axis. -/
abbrev vecGatherDims (N R : ℕ)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The entry a start index names: the word read as a signed integer, clamped into the vector. -/
def entryOf (N : ℕ) (hN : 0 < N) {w : ℕ} (b : BitVec w) : Fin N := ⟨min b.toInt.toNat (N - 1), by omega⟩

/-- THE ENTRY GATHER READ AT r: the vector at the entry that start index r names. -/
theorem gather_vec_apply {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (vecGatherDims N R wf) x idx (ix1 r) = x (ix1 (entryOf N hN (idx (ix2 r (0 : Fin 1))))) := by
  unfold Host.gather
  congr 1
  funext a
  refine Fin.ext ?_
  match a with
  | ⟨0, _⟩ =>
    show (vecGatherDims N R wf).start (ix1 r) idx 0 + (vecGatherDims N R wf).batchCoord (ix1 r) 0
      + (vecGatherDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecGatherDims N R wf).startIndexMap from List.mem_singleton.mpr rfl)]
    have hsi : (vecGatherDims N R wf).siIdx (ix1 r) ⟨List.idxOf (0 : Fin 1) (vecGatherDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

end Cert.GatherVecLib

end
-- ==== Proof.Stretch2.lean ====
/-
  The result array: the last stretch of host operations applied to the second region's output.

  After the second region the program cuts the label list into its two rows, makes each row a column of start
  indices (a negative index counted from the end), cuts the two score columns out of the region's output, reads the
  first column at the first row's nodes and the second at the second row's, adds the two and the offset. Read at
  label l that is the score of the pair of nodes label l names: the first node's row of the second layer's output
  against the upper half of the weight column, plus the second node's row against the lower half, plus the offset.
-/
import proofs.«139499_j8246337208621_2_alg».proof.Proof.Stretch1
import proofs.«139499_j8246337208621_2_alg».proof.Proof.LibGatherVec

set_option maxRecDepth 16384

noncomputable section

namespace Cert.Sage.Stretch2

open Idealize.ShloMosaic Idealize.ShloMosaic.TcCoe Idealize.SL.Sem Idealize.ShloMosaic.ValueIdx Idealize.ShloMosaic.StableHlo
open Cert.LayoutLib Cert.DenseLib Cert.RowsLib Cert.Sage Cert.Sage.Terms
open Cert.KernelIdeal Cert.KernelIdeal.Gen

variable (hc : S100000.ShapeCasts S100000x1) (hb : S128.ShapeCasts S1x128)
variable (m : (ℓ : Loc nD τ sig) → Buf (Elt Ideal) ℓ) (ρ : Dev nD → PrngReg) (c : Dev nD)

open Cert.Sage.Stretch0 Cert.Sage.Stretch1 Cert.GatherVecLib

/-- The entry a start index names in a vector and the row it names in a table of the same height are one number. -/
theorem entryOf_eq_rowOf (N : ℕ) (hN : 0 < N) {w : ℕ} (b : BitVec w) : entryOf N hN b = rowOf N hN b := rfl

/-- The last stretch as one function of the score pairs, the two columns of start indices and the offset. -/
def tailK (Y : FVec Ideal S100000x2 .f32) (iS iD : IVec S200000x1 32) (a10 : FVec Ideal S1 .f32) : FVec Ideal S200000 .f32 :=
  addf (addf
    (Host.gather gather_S100000_S200000x1_S200000_n_0_n_n_0_1_1
      (shapeCast S100000 (extractStridedSlice S100000x1 ![0, 0] Y slices_S100000x2_S100000x1_0_0) shapeCasts_S100000x1_S100000) iS)
    (Host.gather gather_S100000_S200000x1_S200000_n_0_n_n_0_1_1
      (shapeCast S100000 (extractStridedSlice S100000x1 ![0, 1] Y slices_S100000x2_S100000x1_0_1) shapeCasts_S100000x1_S100000) iD))
    (broadcastInDim S200000 ![] bcast_S_S200000 (shapeCast S_ a10 shapeCasts_S1_S_))

/-- Read at label l: the first score of the node the first index names, plus the second score of the node the second
    names, plus the offset. -/
theorem tailK_apply (Y : FVec Ideal S100000x2 .f32) (iS iD : IVec S200000x1 32) (a10 : FVec Ideal S1 .f32) (l : Fin 200000) :
    tailK Y iS iD a10 (ix1 l)
      = (Y (ix2 (rowOf 100000 (by decide) (iS (ix2 l (0 : Fin 1)))) (0 : Fin 2))
          + Y (ix2 (rowOf 100000 (by decide) (iD (ix2 l (0 : Fin 1)))) (1 : Fin 2)))
        + a10 (ix1 (0 : Fin 1)) := by
  unfold tailK
  rw [addf_apply, addf_apply]
  congr 1
  · congr 1
    · refine (gather_vec_apply (N := 100000) (R := 200000) (by decide) _ _ iS l).trans ?_
      rw [entryOf_eq_rowOf]
      exact (shapeCast_colvec_apply _ _ _).trans (slice2_axis1_apply 0 Y _ _ (0 : Fin 1) (0 : Fin 2) rfl)
    · refine (gather_vec_apply (N := 100000) (R := 200000) (by decide) _ _ iD l).trans ?_
      rw [entryOf_eq_rowOf]
      exact (shapeCast_colvec_apply _ _ _).trans (slice2_axis1_apply 1 Y _ _ (0 : Fin 1) (1 : Fin 2) rfl)
  · refine (broadcastInDim_scalar_apply _ _ _).trans ?_
    exact shapeCast_apply a10 _ ix0 (ix1 (0 : Fin 1)) rfl

/-- Over any feature array: the first score of node a plus the second score of node b plus the offset is the pair's
    score — the two-column matrix's columns are the upper and the lower half of the weight column. -/
theorem score_cols (X : FVec Ideal S100000x128 .f32) (a9 : FVec Ideal S256x1 .f32) (β : EReal) (a b : Fin 100000) :
    (mm X (wlin2 a9) (ix2 a (0 : Fin 2)) + mm X (wlin2 a9) (ix2 b (1 : Fin 2))) + β
      = pairScore X a9 β upHalf loHalf a b := by
  unfold pairScore
  rw [mm_apply, mm_apply]
  refine congrArg₂ (· + ·) (congrArg₂ (· + ·) ?_ ?_) rfl
  · exact Finset.sum_congr rfl fun k _ => congrArg (X (ix2 a k) * ·) (wlin2_up a9 k)
  · exact Finset.sum_congr rfl fun k _ => congrArg (X (ix2 b k) * ·) (wlin2_lo a9 k)

/-! ## Across the second region -/

include hb in
/-- The second region's output array. -/
theorem w4_v35 : W4 (F := Ideal) m ρ c (Proc.devRef .tc main_v35)
    = mm (XK2 hc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (wlin2 (m ((c : Thread nD τ).loc main_arg9))) :=
  (W4_arr m ρ c 7).trans (region1_out hc hb m ρ c)

theorem w4_arg1 : W4 (F := Ideal) m ρ c (Proc.devRef .tc main_arg1) = (m ((c : Thread nD τ).loc main_arg1)) :=
  (W4_of_ne m ρ c main_arg1 (by decide)).trans (s1_arg1 m ρ c)

theorem w4_arg10 : W4 (F := Ideal) m ρ c (Proc.devRef .tc main_arg10) = (m ((c : Thread nD τ).loc main_arg10)) :=
  (W4_of_ne m ρ c main_arg10 (by decide)).trans (s1_arg10 m ρ c)

include hb in
/-- The result array is the last stretch's function of the second region's output and the arguments. -/
theorem s2_v61 : (W5 (F := Ideal) m ρ c (Proc.devRef .tc main_v61) : FVec Ideal S200000 .f32)
    = tailK (mm (XK2 hc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (wlin2 (m ((c : Thread nD τ).loc main_arg9))))
        (Cert.ReferenceIdeal.Read.val_main_v64 (F := Ideal) (m ((c : Thread nD τ).loc main_arg1))) (Cert.ReferenceIdeal.Read.val_main_v71 (F := Ideal) (m ((c : Thread nD τ).loc main_arg1))) (m ((c : Thread nD τ).loc main_arg10)) := by
  show StableHlo.after hostOps2 (W4 m ρ c) (Proc.devRef .tc main_v61) = _
  after_results_simp
  rw [w4_v35 hc hb m ρ c, w4_arg1 m ρ c, w4_arg10 m ρ c] <;> rfl

include hb in
/-- THE RESULT AT LABEL l is the score of the pair of nodes the label names. -/
theorem result_apply (l : Fin 200000) :
    (W5 (F := Ideal) m ρ c (Proc.devRef .tc main_v61) : FVec Ideal S200000 .f32) (ix1 l)
      = outK hc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) l := by
  rw [s2_v61 hc hb m ρ c, tailK_apply]
  unfold outK
  exact score_cols (XK2 hc (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) ((m ((c : Thread nD τ).loc main_arg10)) (ix1 (0 : Fin 1)))
    (rowOf 100000 (by decide) (Cert.ReferenceIdeal.Read.val_main_v64 (F := Ideal) (m ((c : Thread nD τ).loc main_arg1)) (ix2 l (0 : Fin 1))))
    (rowOf 100000 (by decide) (Cert.ReferenceIdeal.Read.val_main_v71 (F := Ideal) (m ((c : Thread nD τ).loc main_arg1)) (ix2 l (0 : Fin 1))))

end Cert.Sage.Stretch2

end
-- ==== Proof.RefValue.lean ====
/-
  The reference program read as the specification's functions, over the extended reals.

  The reference computes a layer in the order: neighbour sums divided by the clipped in-degree, times the first weight
  matrix, plus the bias, plus the node's own row times the second weight matrix; the first layer is then cut at zero.
  Each of these stages is one of the specification's functions (the clipped division is the mean aggregation, a general
  dot with one contracted axis is the matrix product, a vector broadcast in two steps is the bias laid along every
  row), and a + b + c = a + c + b puts the bias last. The neighbour sums and the in-degree count are never opened: they
  are the same terms on both sides of every equation here.

  The score of label pair l is entry (l, 0) of the product of a 256-wide array with the weight column, plus the
  offset. Row l of that array is row a of the features laid beside row b, where a and b are the rows the two start
  indices of pair l name; the sum over 256 positions splits at 128 into row a against the upper half of the column and
  row b against the lower half.
-/
import proofs.«139499_j8246337208621_2_alg».proof.Proof.Gen.ReferenceIdeal.Read
import proofs.«139499_j8246337208621_2_alg».proof.Proof.Spec
import proofs.«139499_j8246337208621_2_alg».proof.Proof.LibRows

noncomputable section

namespace Cert.Sage.Ref

open Cert.ReferenceIdeal Cert.ReferenceIdeal.Gen Cert.ReferenceIdeal.Read Cert.Sage Cert.DenseLib Cert.LayoutLib Cert.RowsLib
  Idealize.ShloMosaic Idealize.ShloMosaic.ValueIdx

/-! ## The first layer -/

/-- The first layer's quotient is the mean aggregation of the neighbour sums by the in-degree count made a column. -/
theorem v22_eq (hc : S100000.ShapeCasts S100000x1)
    (x0 : (⟨S2x600000, .i32⟩ : BufTy).Contents (Elt Ideal)) (x2 : (⟨S100000x128, .f32⟩ : BufTy).Contents (Elt Ideal)) :
    val_main_v22 (F := Ideal) x0 x2
      = meanAgg (val_main_v13 (F := Ideal) x0 x2) (shapeCast S100000x1 (val_main_v17 (F := Ideal) x0) hc) := by
  unfold val_main_v22 val_main_v21 val_main_v20 val_main_v19 val_main_v18 val_main_cst_3
  generalize val_main_v13 (F := Ideal) x0 x2 = msg
  generalize val_main_v17 (F := Ideal) x0 = cnt
  exact hostDivf_clip_eq_meanAgg msg cnt _ _ _ hc

/-- The first layer's bias, broadcast to one row and then down the rows, is the bias laid along every row. -/
theorem v25_eq (x4 : (⟨S128, .f32⟩ : BufTy).Contents (Elt Ideal)) :
    val_main_v25 (F := Ideal) x4 = rows (M := 100000) fun q : Fin 128 => x4 (ix1 q) := by
  unfold val_main_v25 val_main_v24
  exact broadcastInDim_eq_rows x4 _ _

/-- THE FIRST LAYER: the reference's cut value is the cut at zero of the specification's layer on the input features. -/
theorem x1_eq (hc : S100000.ShapeCasts S100000x1)
    (x0 : (⟨S2x600000, .i32⟩ : BufTy).Contents (Elt Ideal)) (x2 : (⟨S100000x128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v29 (F := Ideal) x0 x2 x3 x4 x5
      = relu (layer (val_main_v13 (F := Ideal) x0 x2) (shapeCast S100000x1 (val_main_v17 (F := Ideal) x0) hc) x2 x3 x5
          (fun q => x4 (ix1 q))) := by
  unfold val_main_v29 val_main_v28 val_main_v27 val_main_v26 val_main_v23 val_main_call0_v0 val_main_call0_cst
  rw [v22_eq hc, v25_eq]
  generalize val_main_v13 (F := Ideal) x0 x2 = msg
  generalize shapeCast S100000x1 (val_main_v17 (F := Ideal) x0) hc = cnt
  rw [maximumf_bcast_zero, addf_eq_plus, addf_eq_plus,
    dotGeneral_eq_mm _ (rfl : dot_S100000x128_S128x128_S100000x128_1_0_0_1_n_n = DotDims.plain 100000 128 128) (meanAgg msg cnt) x3,
    dotGeneral_eq_mm _ (rfl : dot_S100000x128_S128x128_S100000x128_1_0_0_1_n_n = DotDims.plain 100000 128 128) x2 x5,
    layer_eq_bias_first]

/-! ## The second layer -/

/-- The second layer counts the in-degrees again: the same term. -/
theorem v43_eq (x0 : (⟨S2x600000, .i32⟩ : BufTy).Contents (Elt Ideal)) :
    val_main_v43 (F := Ideal) x0 = val_main_v17 (F := Ideal) x0 := rfl

/-- The second layer's quotient is the mean aggregation of its neighbour sums by the same in-degree column. -/
theorem v48_eq (hc : S100000.ShapeCasts S100000x1)
    (x0 : (⟨S2x600000, .i32⟩ : BufTy).Contents (Elt Ideal)) (x2 : (⟨S100000x128, .f32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) :
    val_main_v48 (F := Ideal) x0 x2 x3 x4 x5
      = meanAgg (val_main_v39 (F := Ideal) x0 x2 x3 x4 x5) (shapeCast S100000x1 (val_main_v17 (F := Ideal) x0) hc) := by
  unfold val_main_v48 val_main_v47 val_main_v46 val_main_v45 val_main_v44 val_main_cst_9
  rw [v43_eq]
  generalize val_main_v39 (F := Ideal) x0 x2 x3 x4 x5 = msg
  generalize val_main_v17 (F := Ideal) x0 = cnt
  exact hostDivf_clip_eq_meanAgg msg cnt _ _ _ hc

/-- The second layer's bias laid along every row. -/
theorem v51_eq (x7 : (⟨S128, .f32⟩ : BufTy).Contents (Elt Ideal)) :
    val_main_v51 (F := Ideal) x7 = rows (M := 100000) fun q : Fin 128 => x7 (ix1 q) := by
  unfold val_main_v51 val_main_v50
  exact broadcastInDim_eq_rows x7 _ _

/-- THE SECOND LAYER: the reference's value is the specification's layer on the first layer's cut value, not cut. -/
theorem x2_eq (hc : S100000.ShapeCasts S100000x1)
    (x0 : (⟨S2x600000, .i32⟩ : BufTy).Contents (Elt Ideal)) (x2 : (⟨S100000x128, .f32⟩ : BufTy).Contents (Elt Ideal))
    (x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x128, .f32⟩ : BufTy).Contents (Elt Ideal)) :
    val_main_v54 (F := Ideal) x0 x2 x3 x4 x5 x6 x7 x8
      = layer (val_main_v39 (F := Ideal) x0 x2 x3 x4 x5) (shapeCast S100000x1 (val_main_v17 (F := Ideal) x0) hc)
          (val_main_v29 (F := Ideal) x0 x2 x3 x4 x5) x6 x8 (fun q => x7 (ix1 q)) := by
  unfold val_main_v54 val_main_v53 val_main_v52 val_main_v49
  rw [v48_eq hc, v51_eq]
  generalize val_main_v39 (F := Ideal) x0 x2 x3 x4 x5 = msg
  generalize shapeCast S100000x1 (val_main_v17 (F := Ideal) x0) hc = cnt
  generalize val_main_v29 (F := Ideal) x0 x2 x3 x4 x5 = h
  rw [addf_eq_plus, addf_eq_plus,
    dotGeneral_eq_mm _ (rfl : dot_S100000x128_S128x128_S100000x128_1_0_0_1_n_n = DotDims.plain 100000 128 128) (meanAgg msg cnt) x6,
    dotGeneral_eq_mm _ (rfl : dot_S100000x128_S128x128_S100000x128_1_0_0_1_n_n = DotDims.plain 100000 128 128) h x8,
    layer_eq_bias_first]

/-! ## The score of a label pair -/

/-- Position k of the upper half is position k left of the seam of 128 + 128. -/
theorem upHalf_eq (k : Fin 128) : upHalf k = Fin.castAdd 128 k := Fin.ext rfl

/-- Position k of the lower half is position k right of the seam. -/
theorem loHalf_eq (k : Fin 128) : loHalf k = Fin.natAdd 128 k := Fin.ext rfl

/-- Row l of two row gathers of one table laid side by side, against a column of 256 weights: the row the first start
    index names against the upper half, plus the row the second names against the lower half. -/
theorem pair_row_sum (X : (⟨S100000x128, .f32⟩ : BufTy).Contents (Elt Ideal))
    (i1 i2 : (⟨S200000x1, .i32⟩ : BufTy).Contents (Elt Ideal)) (w : (⟨S256x1, .f32⟩ : BufTy).Contents (Elt Ideal))
    (l : Fin 200000) :
    (∑ k : Fin 256,
        concatenate S200000x256 1
          [⟨S200000x128, Host.gather gather_S100000x128_S200000x1_S200000x128_1_0_n_n_0_1_1128 X i1⟩,
           ⟨S200000x128, Host.gather gather_S100000x128_S200000x1_S200000x128_1_0_n_n_0_1_1128 X i2⟩]
          concatenates_S200000x128_S200000x128_S200000x256_d1 (ix2 l k) * w (ix2 k (0 : Fin 1)))
      = ∑ k : Fin 128, X (ix2 (rowOf 100000 (by decide) (i1 (ix2 l (0 : Fin 1)))) k) * w (ix2 (upHalf k) (0 : Fin 1))
        + ∑ k : Fin 128, X (ix2 (rowOf 100000 (by decide) (i2 (ix2 l (0 : Fin 1)))) k) * w (ix2 (loHalf k) (0 : Fin 1)) := by
  have hG : gather_S100000x128_S200000x1_S200000x128_1_0_n_n_0_1_1128
      = rowGatherDims 100000 128 200000 gather_S100000x128_S200000x1_S200000x128_1_0_n_n_0_1_1128_wf := rfl
  rw [hG]
  generalize hg1 : Host.gather (rowGatherDims 100000 128 200000 gather_S100000x128_S200000x1_S200000x128_1_0_n_n_0_1_1128_wf) X i1 = g1
  generalize hg2 : Host.gather (rowGatherDims 100000 128 200000 gather_S100000x128_S200000x1_S200000x128_1_0_n_n_0_1_1128_wf) X i2 = g2
  have hl : ∀ k : Fin 128,
      concatenate S200000x256 1 [⟨S200000x128, g1⟩, ⟨S200000x128, g2⟩]
        concatenates_S200000x128_S200000x128_S200000x256_d1 (ix2 l (Fin.castAdd 128 k))
        = X (ix2 (rowOf 100000 (by decide) (i1 (ix2 l (0 : Fin 1)))) k) := fun k => by
    rw [concat_cols_left g1 g2 concatenates_S200000x128_S200000x128_S200000x256_d1 l k (Fin.castAdd 128 k) rfl, ← hg1,
      gather_rows_apply (by decide) gather_S100000x128_S200000x1_S200000x128_1_0_n_n_0_1_1128_wf X i1 l k]
  have hr : ∀ k : Fin 128,
      concatenate S200000x256 1 [⟨S200000x128, g1⟩, ⟨S200000x128, g2⟩]
        concatenates_S200000x128_S200000x128_S200000x256_d1 (ix2 l (Fin.natAdd 128 k))
        = X (ix2 (rowOf 100000 (by decide) (i2 (ix2 l (0 : Fin 1)))) k) := fun k => by
    rw [concat_cols_right g1 g2 concatenates_S200000x128_S200000x128_S200000x256_d1 l k (Fin.natAdd 128 k) rfl, ← hg2,
      gather_rows_apply (by decide) gather_S100000x128_S200000x1_S200000x128_1_0_n_n_0_1_1128_wf X i2 l k]
  have hs := pair_sum_split (K := 128)
    (fun k => X (ix2 (rowOf 100000 (by decide) (i1 (ix2 l (0 : Fin 1)))) k))
    (fun k => X (ix2 (rowOf 100000 (by decide) (i2 (ix2 l (0 : Fin 1)))) k))
    (fun k : Fin (128 + 128) => w (ix2 (n0 := 256) k (0 : Fin 1)))
    (fun k : Fin (128 + 128) => concatenate S200000x256 1 [⟨S200000x128, g1⟩, ⟨S200000x128, g2⟩]
        concatenates_S200000x128_S200000x128_S200000x256_d1 (ix2 (n1 := 256) l k)) hl hr
  simp only [upHalf_eq, loHalf_eq]
  exact hs

/-- THE SCORE of label pair l: the specification's score of the two rows the pair's start indices name. -/
theorem out_eq
    (x0 : (⟨S2x600000, .i32⟩ : BufTy).Contents (Elt Ideal)) (x1 : (⟨S2x200000, .i32⟩ : BufTy).Contents (Elt Ideal))
    (x2 : (⟨S100000x128, .f32⟩ : BufTy).Contents (Elt Ideal))
    (x3 : (⟨S128x128, .f32⟩ : BufTy).Contents (Elt Ideal)) (x4 : (⟨S128, .f32⟩ : BufTy).Contents (Elt Ideal))
    (x5 x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S256x1, .f32⟩ : BufTy).Contents (Elt Ideal))
    (x10 : (⟨S1, .f32⟩ : BufTy).Contents (Elt Ideal)) (l : Fin 200000) :
    val_main_v78 (F := Ideal) x0 x1 x2 x3 x4 x5 x6 x7 x8 x9 x10 (ix1 l)
      = pairScore (val_main_v54 (F := Ideal) x0 x2 x3 x4 x5 x6 x7 x8) x9 (x10 (ix1 (0 : Fin 1))) upHalf loHalf
          (rowOf 100000 (by decide) (val_main_v64 (F := Ideal) x1 (ix2 l (0 : Fin 1))))
          (rowOf 100000 (by decide) (val_main_v71 (F := Ideal) x1 (ix2 l (0 : Fin 1)))) := by
  unfold val_main_v78
  rw [shapeCast_colvec_apply]
  unfold val_main_v77 val_main_v76 val_main_v75 val_main_v74 val_main_v73 val_main_v72 val_main_v65
  generalize val_main_v54 (F := Ideal) x0 x2 x3 x4 x5 x6 x7 x8 = X
  generalize val_main_v64 (F := Ideal) x1 = i1
  generalize val_main_v71 (F := Ideal) x1 = i2
  rw [addf_eq_plus,
    dotGeneral_eq_mm _ (rfl : dot_S200000x256_S256x1_S200000x1_1_0_0_1_n_n = DotDims.plain 200000 256 1)]
  show mm _ x9 (ix2 l (0 : Fin 1)) + broadcastInDim S200000x1 ![0, 1] bcast_S1x1_S200000x1_0_1
      (broadcastInDim S1x1 ![1] bcast_S1_S1x1_1 x10) (ix2 l (0 : Fin 1)) = _
  rw [mm_apply, broadcastInDim_row_apply, broadcastInDim_vecRow_apply, pair_row_sum X i1 i2 x9 l]
  rfl

end Cert.Sage.Ref

end
-- ==== Proof.Bridge.lean ====
/-
  The two programs compute one function.

  The tiled program's result at label l is `outK` of the argument arrays: the score of the label's pair of nodes
  over the second layer's output `XK2`, itself the layer of the first layer's output `XK1`. The reference's
  stages are the same three functions: its first cut value is `XK1` (its neighbour sums are `agg` of the
  features), its second value is `XK2` (its second neighbour sums are `agg` of its first cut value, hence of
  `XK1`), and its result at label l is the same score. Every index of the result vector is a label, so the two
  result arrays are equal.
-/
import proofs.«139499_j8246337208621_2_alg».proof.Proof.Stretch2
import proofs.«139499_j8246337208621_2_alg».proof.Proof.RefValue

set_option maxRecDepth 16384

noncomputable section

namespace Cert.Sage.Bridge

open Idealize.ShloMosaic Idealize.ShloMosaic.TcCoe Idealize.SL.Sem Idealize.ShloMosaic.ValueIdx
open Cert.Sage Cert.Sage.Terms

/-- The first layer's output is the reference's first cut value. -/
theorem XK1_eq (hc : Cert.ReferenceIdeal.S100000.ShapeCasts Cert.ReferenceIdeal.S100000x1) (a0 : (⟨Cert.ReferenceIdeal.S2x600000, .i32⟩ : BufTy).Contents (Elt Ideal)) (a2 : (⟨Cert.ReferenceIdeal.S100000x128, .f32⟩ : BufTy).Contents (Elt Ideal)) (a3 : (⟨Cert.ReferenceIdeal.S128x128, .f32⟩ : BufTy).Contents (Elt Ideal)) (a4 : (⟨Cert.ReferenceIdeal.S128, .f32⟩ : BufTy).Contents (Elt Ideal)) (a5 : (⟨Cert.ReferenceIdeal.S128x128, .f32⟩ : BufTy).Contents (Elt Ideal)) :
    XK1 hc a0 a2 a3 a4 a5 = Cert.ReferenceIdeal.Read.val_main_v29 (F := Ideal) a0 a2 a3 a4 a5 := by
  unfold XK1 cnt2d
  rw [← v13_eq]
  exact (Cert.Sage.Ref.x1_eq hc a0 a2 a3 a4 a5).symm

/-- The second layer's output is the reference's second value. -/
theorem XK2_eq (hc : Cert.ReferenceIdeal.S100000.ShapeCasts Cert.ReferenceIdeal.S100000x1) (a0 : (⟨Cert.ReferenceIdeal.S2x600000, .i32⟩ : BufTy).Contents (Elt Ideal)) (a2 : (⟨Cert.ReferenceIdeal.S100000x128, .f32⟩ : BufTy).Contents (Elt Ideal)) (a3 : (⟨Cert.ReferenceIdeal.S128x128, .f32⟩ : BufTy).Contents (Elt Ideal)) (a4 : (⟨Cert.ReferenceIdeal.S128, .f32⟩ : BufTy).Contents (Elt Ideal)) (a5 : (⟨Cert.ReferenceIdeal.S128x128, .f32⟩ : BufTy).Contents (Elt Ideal)) (a6 : (⟨Cert.ReferenceIdeal.S128x128, .f32⟩ : BufTy).Contents (Elt Ideal)) (a7 : (⟨Cert.ReferenceIdeal.S128, .f32⟩ : BufTy).Contents (Elt Ideal)) (a8 : (⟨Cert.ReferenceIdeal.S128x128, .f32⟩ : BufTy).Contents (Elt Ideal)) :
    XK2 hc a0 a2 a3 a4 a5 a6 a7 a8 = Cert.ReferenceIdeal.Read.val_main_v54 (F := Ideal) a0 a2 a3 a4 a5 a6 a7 a8 := by
  unfold XK2 cnt2d
  rw [XK1_eq, ← v39_eq]
  exact (Cert.Sage.Ref.x2_eq hc a0 a2 a3 a4 a5 a6 a7 a8).symm

/-- The score of label pair l is the reference's result at l. -/
theorem outK_eq (hc : Cert.ReferenceIdeal.S100000.ShapeCasts Cert.ReferenceIdeal.S100000x1) (a0 : (⟨Cert.ReferenceIdeal.S2x600000, .i32⟩ : BufTy).Contents (Elt Ideal)) (a1 : (⟨Cert.ReferenceIdeal.S2x200000, .i32⟩ : BufTy).Contents (Elt Ideal)) (a2 : (⟨Cert.ReferenceIdeal.S100000x128, .f32⟩ : BufTy).Contents (Elt Ideal)) (a3 : (⟨Cert.ReferenceIdeal.S128x128, .f32⟩ : BufTy).Contents (Elt Ideal)) (a4 : (⟨Cert.ReferenceIdeal.S128, .f32⟩ : BufTy).Contents (Elt Ideal)) (a5 : (⟨Cert.ReferenceIdeal.S128x128, .f32⟩ : BufTy).Contents (Elt Ideal)) (a6 : (⟨Cert.ReferenceIdeal.S128x128, .f32⟩ : BufTy).Contents (Elt Ideal)) (a7 : (⟨Cert.ReferenceIdeal.S128, .f32⟩ : BufTy).Contents (Elt Ideal)) (a8 : (⟨Cert.ReferenceIdeal.S128x128, .f32⟩ : BufTy).Contents (Elt Ideal)) (a9 : (⟨Cert.ReferenceIdeal.S256x1, .f32⟩ : BufTy).Contents (Elt Ideal)) (a10 : (⟨Cert.ReferenceIdeal.S1, .f32⟩ : BufTy).Contents (Elt Ideal)) (l : Fin 200000) :
    outK hc a0 a1 a2 a3 a4 a5 a6 a7 a8 a9 a10 l = Cert.ReferenceIdeal.Read.val_main_v78 (F := Ideal) a0 a1 a2 a3 a4 a5 a6 a7 a8 a9 a10 (ix1 l) := by
  unfold outK
  rw [XK2_eq]
  exact (Cert.Sage.Ref.out_eq a0 a1 a2 a3 a4 a5 a6 a7 a8 a9 a10 l).symm

open Cert.KernelIdeal Cert.KernelIdeal.Gen in
/-- THE TILED PROGRAM'S RESULT ARRAY, at the last boundary of its run, is the reference's last stage of the same
    argument arrays. -/
theorem result_eq (m : (ℓ : Loc nD τ sig) → Buf (Elt Ideal) ℓ) (ρ : Dev nD → PrngReg) (c : Dev nD) :
    (W5 (F := Ideal) m ρ c (Proc.devRef .tc main_v61) : FVec Ideal S200000 .f32)
      = Cert.ReferenceIdeal.Read.val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  funext i
  obtain ⟨l, rfl⟩ : ∃ l : Fin 200000, i = ix1 l := ⟨i 0, eq_ix1 i⟩
  rw [Cert.Sage.Stretch2.result_apply Facts₀.shapeCasts_S100000_S100000x1 Facts₀.shapeCasts_S128_S1x128 m ρ c l, outK_eq]

end Cert.Sage.Bridge

end
-- ==== Proof.lean ====
/-
  A two-layer graph network with mean aggregation and a link score, computed in row bands, equals its plain
  reference over the extended reals.

  Both programs take an edge list, a list of label pairs, node features, two pairs of weight matrices with biases,
  and a 256-entry weight column with an offset. A layer divides every node's sum of in-neighbour rows by the node's
  in-degree (clipped below at one), multiplies the quotient by one matrix and the node's own row by the other, and adds
  the bias; the first layer is cut at zero. The score of a label pair (a, b) is row a of the second layer laid beside
  row b, against the weight column, plus the offset.

  The banded program computes each layer 5000 rows at a time: a row of a layer depends on the same row of its operands
  only, so the bands of the layer are the layer's bands, and the twenty bands tile the 100000 rows. It adds a layer's
  three terms in another order than the reference (a + c + b for a + b + c), and it moves the score through the row
  selection: instead of selecting two 128-wide rows and multiplying the 256-wide pair by the column, it multiplies
  every node's row by the column's upper and by its lower half once, and selects two numbers per pair. A sum over 256
  terms splits at 128; nothing else is used, and addition of extended reals is commutative and associative, so the
  equality holds for every input and the finiteness of the inputs is never called on. The neighbour sums and the
  in-degree count are the same terms in both programs and are never opened.

  The three frames: the banded program's, at both instances, are the generated frame certificates; the reference's
  is its generated run with the result dropped. The idealized banded program is the printed one read over the
  extended reals: no operation was rewritten, and the preservation claim is trivial.
-/
import proofs.«139499_j8246337208621_2_alg».proof.Defs
import proofs.«139499_j8246337208621_2_alg».proof.Proof.Gen.Kernel
import proofs.«139499_j8246337208621_2_alg».proof.Proof.Gen.Kernel.Skeleton
import proofs.«139499_j8246337208621_2_alg».proof.Proof.Gen.Kernel.Launch
import proofs.«139499_j8246337208621_2_alg».proof.Proof.Gen.Kernel.Points
import proofs.«139499_j8246337208621_2_alg».proof.Proof.Gen.Kernel.Frame
import proofs.«139499_j8246337208621_2_alg».proof.Proof.Gen.KernelIdeal
import proofs.«139499_j8246337208621_2_alg».proof.Proof.Gen.KernelIdeal.Skeleton
import proofs.«139499_j8246337208621_2_alg».proof.Proof.Gen.KernelIdeal.Launch
import proofs.«139499_j8246337208621_2_alg».proof.Proof.Gen.KernelIdeal.Points
import proofs.«139499_j8246337208621_2_alg».proof.Proof.Gen.KernelIdeal.Frame
import proofs.«139499_j8246337208621_2_alg».proof.Proof.Gen.ReferenceIdeal
import proofs.«139499_j8246337208621_2_alg».proof.Proof.Gen.ReferenceIdeal.Run
import proofs.«139499_j8246337208621_2_alg».proof.Proof.Gen.ReferenceIdeal.Read
import proofs.«139499_j8246337208621_2_alg».proof.Proof.Gen.Pre_finite_inputs
import proofs.«139499_j8246337208621_2_alg».proof.Proof.KernelRun
import proofs.«139499_j8246337208621_2_alg».proof.Proof.Bridge
import Idealize.ShloMosaic.Adequacy
import Idealize.ShloMosaic.Init

noncomputable section

namespace Cert.Proof

open Idealize.ShloMosaic Idealize.ShloMosaic.TcCoe Idealize.SL.Sem

/-- The banded program as printed runs, and leaves its arguments as launched. -/
theorem frame_k : Cert.frame_Kernel := fun m ρ _ => Cert.Kernel.Gen.frame m ρ

/-- So does the banded program read over the extended reals. -/
theorem frame_ki : Cert.frame_KernelIdeal := fun m ρ _ => Cert.KernelIdeal.Gen.frame m ρ

/-- So does the reference: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments both programs run, and their result arrays are equal: the banded
    program's is the reference's last stage of the same argument arrays. -/
theorem algebraic : Cert.algebraic_KernelIdeal_ReferenceIdeal := by
  intro m ρ m' ρ' _ hagree
  refine ⟨fun c => Cert.KernelIdeal.Gen.W5 (F := Ideal) m ρ c (Proc.devRef .tc Cert.KernelIdeal.main_v61),
    Cert.Sage.KernelRun.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v78_eq, h0, h1, h2, h3, h4, h5, h6, h7, h8, h9, h10]
  exact (Cert.Sage.Bridge.result_eq m ρ c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
